-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x600000 : Shape := ⟨2, ![2, 600000]⟩
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S128x16 .f32) (main_arg10 : FVec F S16 .f32) (main_v33 : IVec S_ 1) : IVec S_ 1 :=
  let main_v34 : FVec F S128x16 .f32 := Host.absf main_arg9
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x128 .f32) (main_arg9 : FVec F S128x16 .f32) (main_arg10 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : IVec S50000 32) (main_arg1 : IVec S2x600000 32) (main_arg2 : FVec F S50000x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x16 .f32) (main_arg10 : FVec F S16 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000 : Shape := ⟨1, ![50000]⟩
abbrev S2x600000 : Shape := ⟨2, ![2, 600000]⟩
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S50000x1 : Shape := ⟨2, ![50000, 1]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩
abbrev S1 : Shape := ⟨1, ![1]⟩
abbrev S1x16 : Shape := ⟨2, ![1, 16]⟩
abbrev S2000x128 : Shape := ⟨2, ![2000, 128]⟩
abbrev S2000x1 : Shape := ⟨2, ![2000, 1]⟩
abbrev S50000x16 : Shape := ⟨2, ![50000, 16]⟩

abbrev nBuf : Space → Nat
  | .hbm => 82
  | .vmem => 24
  | .smem => 0
  | _ => 0

abbrev bufTy : (tb : Table) → Fin (tcTables nBuf tb) → BufTy
  | .hbm, ⟨0, _⟩ => ⟨S50000, .i32⟩
  | .hbm, ⟨1, _⟩ => ⟨S2x600000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x16, .f32⟩
  | .hbm, ⟨10, _⟩ => ⟨S16, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S50000x128, .bf16⟩
  | .hbm, ⟨16, _⟩ => ⟨S_, .i32⟩
  | .hbm, ⟨17, _⟩ => ⟨S50000, .i32⟩
  | .hbm, ⟨18, _⟩ => ⟨S50000, .i1⟩
  | .hbm, ⟨19, _⟩ => ⟨S_, .i32⟩
  | .hbm, ⟨20, _⟩ => ⟨S50000, .i32⟩
  | .hbm, ⟨21, _⟩ => ⟨S50000, .i32⟩
  | .hbm, ⟨22, _⟩ => ⟨S50000, .i32⟩
  | .hbm, ⟨23, _⟩ => ⟨S50000x1, .i32⟩
  | .hbm, ⟨24, _⟩ => ⟨S50000x128, .bf16⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .bf16⟩
  | .hbm, ⟨47, _⟩ => ⟨S600000x128, .f32⟩
  | .hbm, ⟨48, _⟩ => ⟨S_, .f32⟩
  | .hbm, ⟨49, _⟩ => ⟨S50000x128, .f32⟩
  | .hbm, ⟨50, _⟩ => ⟨S600000x1, .i32⟩
  | .hbm, ⟨51, _⟩ => ⟨S50000x128, .f32⟩
  | .hbm, ⟨52, _⟩ => ⟨S1x128, .f32⟩
  | .hbm, ⟨53, _⟩ => ⟨S50000x128, .bf16⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .bf16⟩
  | .hbm, ⟨63, _⟩ => ⟨S600000x128, .f32⟩
  | .hbm, ⟨64, _⟩ => ⟨S_, .f32⟩
  | .hbm, ⟨65, _⟩ => ⟨S50000x128, .f32⟩
  | .hbm, ⟨66, _⟩ => ⟨S600000x1, .i32⟩
  | .hbm, ⟨67, _⟩ => ⟨S50000x128, .f32⟩
  | .hbm, ⟨68, _⟩ => ⟨S1x128, .f32⟩
  | .hbm, ⟨69, _⟩ => ⟨S_, .f32⟩
  | .hbm, ⟨70, _⟩ => ⟨S128x128, .f32⟩
  | .hbm, ⟨71, _⟩ => ⟨S_, .i32⟩
  | .hbm, ⟨72, _⟩ => ⟨S1, .i32⟩
  | .hbm, ⟨73, _⟩ => ⟨S128x128, .f32⟩
  | .hbm, ⟨74, _⟩ => ⟨S_, .f32⟩
  | .hbm, ⟨75, _⟩ => ⟨S1x128, .f32⟩
  | .hbm, ⟨76, _⟩ => ⟨S1x16, .f32⟩
  | .hbm, ⟨77, _⟩ => ⟨S_, .i32⟩
  | .hbm, ⟨78, _⟩ => ⟨S1, .i32⟩
  | .hbm, ⟨79, _⟩ => ⟨S1x128, .f32⟩
  | .hbm, ⟨80, _⟩ => ⟨S50000x128, .f32⟩
  | .hbm, ⟨81, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .bf16⟩
  | .local _ .vmem, ⟨5, _⟩ => ⟨S5000x128, .bf16⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .bf16⟩
  | .local _ .vmem, ⟨10, _⟩ => ⟨S5000x128, .bf16⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .bf16⟩
  | .local _ .vmem, ⟨16, _⟩ => ⟨S2000x128, .bf16⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_cst_12 : Ref sig .tc := ⟨.hbm, 74, rfl⟩
abbrev main_v49 : Ref sig .tc := ⟨.hbm, 75, rfl⟩
abbrev main_v50 : Ref sig .tc := ⟨.hbm, 76, rfl⟩
abbrev main_c_13 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S_S50000 : S_.BroadcastsInDim S50000 (![] : Fin 0 → Fin S50000.rank)
  bcast_S50000_S50000x1_0 : S50000.BroadcastsInDim S50000x1 (![0] : Fin 1 → Fin S50000x1.rank)
  bcast_S_S600000 : S_.BroadcastsInDim S600000 (![] : Fin 0 → Fin S600000.rank)
  bcast_S600000_S600000x1_0 : S600000.BroadcastsInDim S600000x1 (![0] : Fin 1 → Fin S600000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  shapeCasts_S16_S1x16 : S16.ShapeCasts S1x16
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  broadcasts_S1x128_S2000x128 : S1x128.Broadcasts S2000x128
  shapeCasts_S128x128_S128x128 : S128x128.ShapeCasts S128x128
  slices_S50000x128_S50000x16_0_0 : S50000x128.Slices ![0, 0] S50000x16
  gather_S50000x128_S50000x1_S50000x128_1_0_n_n_0_1_1128_wf : GatherDims.WF S50000x128 S50000x1 S50000x128 [1] [0] [] [0] [] 1 ![1, 128]
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S128x128_S1_S128x16_01_n_1_0_wf : ScatterDims.WF S128x128 S1 S128x16 [0, 1] [] [1] 0
  scatter_S1x128_S1_S1x16_01_n_1_0_wf : ScatterDims.WF S1x128 S1 S1x16 [0, 1] [] [1] 0
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .bf16 = 32 ∨ (Rect.block (s := S50000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S1_S128x16_01_n_1_0 : ScatterDims S128x128 S1 S128x16 where
  updateWindowDims := [0, 1]
  insertedWindowDims := []
  scatterDimsToOperandDims := [1]
  indexVectorDim := 0
  wf := scatter_S128x128_S1_S128x16_01_n_1_0_wf
def scatter_S1x128_S1_S1x16_01_n_1_0 : ScatterDims S1x128 S1 S1x16 where
  updateWindowDims := [0, 1]
  insertedWindowDims := []
  scatterDimsToOperandDims := [1]
  indexVectorDim := 0
  wf := scatter_S1x128_S1_S1x16_01_n_1_0_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v31) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v52) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v53) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000 : Shape := ⟨1, ![50000]⟩
abbrev S2x600000 : Shape := ⟨2, ![2, 600000]⟩
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S50000x1 : Shape := ⟨2, ![50000, 1]⟩
abbrev S600000x1 : Shape := ⟨2, ![600000, 1]⟩
abbrev S600000x128 : Shape := ⟨2, ![600000, 128]⟩
abbrev S1x128 : Shape := ⟨2, ![1, 128]⟩
abbrev S50000x16 : Shape := ⟨2, ![50000, 16]⟩
abbrev S1x16 : Shape := ⟨2, ![1, 16]⟩

abbrev nBuf : Space → Nat
  | .hbm => 93
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x600000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x16, .f32⟩
  | .hbm, ⟨10, _⟩ => ⟨S16, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S50000, .i32⟩
  | .hbm, ⟨17, _⟩ => ⟨S50000, .i1⟩
  | .hbm, ⟨18, _⟩ => ⟨S_, .i32⟩
  | .hbm, ⟨19, _⟩ => ⟨S50000, .i32⟩
  | .hbm, ⟨20, _⟩ => ⟨S50000, .i32⟩
  | .hbm, ⟨21, _⟩ => ⟨S50000, .i32⟩
  | .hbm, ⟨22, _⟩ => ⟨S50000x1, .i32⟩
  | .hbm, ⟨23, _⟩ => ⟨S50000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .f32⟩
  | .hbm, ⟨34, _⟩ => ⟨S50000x128, .f32⟩
  | .hbm, ⟨35, _⟩ => ⟨S600000x1, .i32⟩
  | .hbm, ⟨36, _⟩ => ⟨S50000x128, .f32⟩
  | .hbm, ⟨37, _⟩ => ⟨S_, .f32⟩
  | .hbm, ⟨38, _⟩ => ⟨S600000, .f32⟩
  | .hbm, ⟨39, _⟩ => ⟨S_, .f32⟩
  | .hbm, ⟨40, _⟩ => ⟨S50000, .f32⟩
  | .hbm, ⟨41, _⟩ => ⟨S600000x1, .i32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S600000, .i32⟩
  | .hbm, ⟨60, _⟩ => ⟨S600000, .i1⟩
  | .hbm, ⟨61, _⟩ => ⟨S_, .i32⟩
  | .hbm, ⟨62, _⟩ => ⟨S600000, .i32⟩
  | .hbm, ⟨63, _⟩ => ⟨S600000, .i32⟩
  | .hbm, ⟨64, _⟩ => ⟨S600000, .i32⟩
  | .hbm, ⟨65, _⟩ => ⟨S600000x1, .i32⟩
  | .hbm, ⟨66, _⟩ => ⟨S600000x128, .f32⟩
  | .hbm, ⟨67, _⟩ => ⟨S_, .f32⟩
  | .hbm, ⟨68, _⟩ => ⟨S50000x128, .f32⟩
  | .hbm, ⟨69, _⟩ => ⟨S600000x1, .i32⟩
  | .hbm, ⟨70, _⟩ => ⟨S50000x128, .f32⟩
  | .hbm, ⟨71, _⟩ => ⟨S_, .f32⟩
  | .hbm, ⟨72, _⟩ => ⟨S600000, .f32⟩
  | .hbm, ⟨73, _⟩ => ⟨S_, .f32⟩
  | .hbm, ⟨74, _⟩ => ⟨S50000, .f32⟩
  | .hbm, ⟨75, _⟩ => ⟨S600000x1, .i32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000x1, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x16, .f32⟩
  | .hbm, ⟨90, _⟩ => ⟨S1x16, .f32⟩
  | .hbm, ⟨91, _⟩ => ⟨S50000x16, .f32⟩
  | .hbm, ⟨92, _⟩ => ⟨S50000x16, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call0_cst : Ref sig .tc := ⟨.hbm, 55, rfl⟩
abbrev main_call0_v0 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S50000_S50000x1_0 : S50000.BroadcastsInDim S50000x1 (![0] : Fin 1 → Fin S50000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  gather_S50000x128_S50000x1_S50000x128_1_0_n_n_0_1_1128_wf : GatherDims.WF S50000x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.KernelRun.lean ====
/-
  The idealized kernel program runs to the end, and its result array ends at the value the program's text
  determines: the contents of the TensorCore's buffers are followed from the launch through the first stretch of
  host operations, the first kernel call, the second stretch, the second kernel call and the last host
  operation; the result buffer holds what that chain leaves in it, and the argument arrays end as launched.
  The chain itself (which buffer holds what at each boundary) is named by the frame module; here the run's
  last state is read at one more buffer, the result.
-/
import proofs.«170168_j15917148799635_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; in the final state the result buffer
    holds the last boundary's contents of it (the fold of the whole program over the launch memory), and the
    eleven argument arrays are unchanged. -/
theorem run_value : θ_run defs (onTc (τ := τ) (main (F := F))) ⟨m, fun _ => 0, ρ⟩ (fun r => ∀ c : Dev nD,
      r.2.mem ((c.tc : Thread nD τ).loc main_v54) = W5 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v54 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.Run

end
-- ==== Proof.HostStages.lean ====
/-
  The host operations around the two kernel calls, read one buffer at a time.

  Before the first call the program computes, from the entity ids, the edge list and the embedding table: each
  node's embedding row x (a row gather), each node's in-degree floored at one and its reciprocal as a column, and
  the first neighbourhood sum (a gather of the rows at the edges' sources, added up at the edges' targets).
  Between the calls it gathers and adds up the first layer's output in the same way, and pads the classifier
  matrix and its bias with zero columns up to 128. After the second call it keeps the first 16 columns.
  These are the SAME operations the reference applies, so each buffer is stated as the reference's stage of the
  same name-free meaning (the reference's stages are functions of the arguments only); a change of float format
  is the identity on the extended reals, which is why the two spellings agree.
-/
import proofs.«170168_j15917148799635_2_alg».proof.Proof.Gen.KernelIdeal.Launch
import proofs.«170168_j15917148799635_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.Read

/-- The reciprocal of the floored degree, as the column [50000, 1] the kernels read: one divided by d(n). -/
def invCol (d : S50000.Idx → EReal) : S50000x1.Idx → EReal :=
  shapeCast S50000x1 (Host.divf (F := Ideal) (φ := .f32)
    (broadcastInDim S50000 ![] bcast_S_S50000 (constant (F := Ideal) S_ .f32 0x3F800000#32)) d) shapeCasts_S50000_S50000x1

/-- A bias vector [128] as the row [1, 128] the kernels read. -/
def biasRow (b : S128.Idx → EReal) : S1x128.Idx → EReal := shapeCast S1x128 b shapeCasts_S128_S1x128

/-- The classifier matrix [128, 16] written into the first 16 columns of a zero matrix [128, 128]. -/
def padMatrix (wc : S128x16.Idx → EReal) : S128x128.Idx → EReal :=
  Host.scatter scatter_S128x128_S1_S128x16_01_n_1_0 (fun _ b => b)
    (broadcastInDim S128x128 ![] bcast_S_S128x128 (constant (F := Ideal) S_ .f32 0x00000000#32))
    (broadcastInDim S1 ![] bcast_S_S1 (constantI S_ 32 0#32)) wc

/-- The classifier bias [16] written into the first 16 columns of a zero row [1, 128]. -/
def padRow (bc : S16.Idx → EReal) : S1x128.Idx → EReal :=
  Host.scatter scatter_S1x128_S1_S1x16_01_n_1_0 (fun _ b => b)
    (broadcastInDim S1x128 ![] bcast_S_S1x128 (constant (F := Ideal) S_ .f32 0x00000000#32))
    (broadcastInDim S1 ![] bcast_S_S1 (constantI S_ 32 0#32)) (shapeCast S1x16 bc shapeCasts_S16_S1x16)

variable (W : Valuation τ sig (Elt Ideal))

/-! ## Before the first kernel call -/

/-- The embedding rows of the nodes' entities. -/
theorem pre_x : after (hostOps0 (F := Ideal)) W (Proc.devRef .tc main_v11)
    = val_main_v10 (F := Ideal) (W (Proc.devRef .tc main_arg0)) (W (Proc.devRef .tc main_arg2)) := by
  after_results_simp; rfl

/-- The first neighbourhood sum. -/
theorem pre_agg : after (hostOps0 (F := Ideal)) W (Proc.devRef .tc main_v31)
    = val_main_v20 (F := Ideal) (W (Proc.devRef .tc main_arg0)) (W (Proc.devRef .tc main_arg1)) (W (Proc.devRef .tc main_arg2)) := by
  after_results_simp; rfl

/-- The reciprocal of the floored degree. -/
theorem pre_inv : after (hostOps0 (F := Ideal)) W (Proc.devRef .tc main_v20)
    = invCol (val_main_v26 (F := Ideal) (W (Proc.devRef .tc main_arg1))) := by
  after_results_simp; rfl

/-- The first bias as a row. -/
theorem pre_bias : after (hostOps0 (F := Ideal)) W (Proc.devRef .tc main_v32)
    = biasRow (W (Proc.devRef .tc main_arg4)) := by
  after_results_simp; rfl

/-- The edges' sources and targets. -/
theorem pre_src : after (hostOps0 (F := Ideal)) W (Proc.devRef .tc main_v1)
    = val_main_v1 (F := Ideal) (W (Proc.devRef .tc main_arg1)) := by
  after_results_simp; rfl
theorem pre_dst : after (hostOps0 (F := Ideal)) W (Proc.devRef .tc main_v3)
    = val_main_v3 (F := Ideal) (W (Proc.devRef .tc main_arg1)) := by
  after_results_simp; rfl

/-- The arguments pass through. -/
theorem pre_arg3 : after (hostOps0 (F := Ideal)) W (Proc.devRef .tc main_arg3) = W (Proc.devRef .tc main_arg3) := by after_results_simp
theorem pre_arg5 : after (hostOps0 (F := Ideal)) W (Proc.devRef .tc main_arg5) = W (Proc.devRef .tc main_arg5) := by after_results_simp
theorem pre_arg6 : after (hostOps0 (F := Ideal)) W (Proc.devRef .tc main_arg6) = W (Proc.devRef .tc main_arg6) := by after_results_simp
theorem pre_arg7 : after (hostOps0 (F := Ideal)) W (Proc.devRef .tc main_arg7) = W (Proc.devRef .tc main_arg7) := by after_results_simp
theorem pre_arg8 : after (hostOps0 (F := Ideal)) W (Proc.devRef .tc main_arg8) = W (Proc.devRef .tc main_arg8) := by after_results_simp
theorem pre_arg9 : after (hostOps0 (F := Ideal)) W (Proc.devRef .tc main_arg9) = W (Proc.devRef .tc main_arg9) := by after_results_simp
theorem pre_arg10 : after (hostOps0 (F := Ideal)) W (Proc.devRef .tc main_arg10) = W (Proc.devRef .tc main_arg10) := by after_results_simp

/-! ## Between the two kernel calls -/

/-- The second neighbourhood sum, of the first layer's output: if the first call's result buffer holds the
    reference's first layer and the edge buffers the reference's edges, the sum is the reference's. -/
theorem mid_agg (x0 : S50000.Idx → BitVec 32) (x1 : S2x600000.Idx → BitVec 32) (x2 : S50000x128.Idx → EReal)
    (x3 : S128x128.Idx → EReal) (x4 : S128.Idx → EReal) (x5 : S128x128.Idx → EReal)
    (e33 : W (Proc.devRef .tc main_v33) = val_main_v36 (F := Ideal) x0 x1 x2 x3 x4 x5)
    (e1 : W (Proc.devRef .tc main_v1) = val_main_v1 (F := Ideal) x1)
    (e3 : W (Proc.devRef .tc main_v3) = val_main_v3 (F := Ideal) x1) :
    after (hostOps1 (F := Ideal)) W (Proc.devRef .tc main_v44) = val_main_v46 (F := Ideal) x0 x1 x2 x3 x4 x5 := by
  after_results_simp
  rw [e33, e1, e3]; rfl

/-- The second bias as a row, the padded classifier matrix and the padded classifier bias. -/
theorem mid_bias : after (hostOps1 (F := Ideal)) W (Proc.devRef .tc main_v45) = biasRow (W (Proc.devRef .tc main_arg7)) := by
  after_results_simp; rfl
theorem mid_wc : after (hostOps1 (F := Ideal)) W (Proc.devRef .tc main_v48) = padMatrix (W (Proc.devRef .tc main_arg9)) := by
  after_results_simp; rfl
theorem mid_bc : after (hostOps1 (F := Ideal)) W (Proc.devRef .tc main_v52) = padRow (W (Proc.devRef .tc main_arg10)) := by
  after_results_simp; rfl

/-- What the second call reads unchanged. -/
theorem mid_inv : after (hostOps1 (F := Ideal)) W (Proc.devRef .tc main_v20) = W (Proc.devRef .tc main_v20) := by after_results_simp
theorem mid_h : after (hostOps1 (F := Ideal)) W (Proc.devRef .tc main_v33) = W (Proc.devRef .tc main_v33) := by after_results_simp
theorem mid_arg6 : after (hostOps1 (F := Ideal)) W (Proc.devRef .tc main_arg6) = W (Proc.devRef .tc main_arg6) := by after_results_simp
theorem mid_arg8 : after (hostOps1 (F := Ideal)) W (Proc.devRef .tc main_arg8) = W (Proc.devRef .tc main_arg8) := by after_results_simp

/-! ## After the second kernel call -/

/-- The result keeps the first 16 of the 128 columns the second call wrote. -/
theorem post_slice : after (hostOps2 (F := Ideal)) W (Proc.devRef .tc main_v54)
    = extractStridedSlice S50000x16 ![0, 0] (W (Proc.devRef .tc main_v53)) slices_S50000x128_S50000x16_0_0 := by
  after_results_simp

end Cert.KernelIdeal.Host

end
-- ==== Proof.Spec.lean ====
/-
  The mathematics both programs compute, written index by index on the extended reals.

  A graph has 50000 nodes with 128 features each. A layer takes, for every node n, a neighbourhood sum
  agg(n, ·), a scale s(n) (the reciprocal of the node's degree, floored at one), the node's own features
  x(n, ·), two weight matrices and a bias row, and returns at feature j

      ( Σ_k (agg(n, k) · s(n)) · Wl(k, j) + b(j) ) + Σ_k x(n, k) · Wr(k, j).

  The first layer is followed by the positive part; the second is followed by a last matrix product with a
  classifier matrix and the addition of its bias. The scale sits on a column [50000, 1] and the biases on rows
  [1, 128], as the arrays do.
-/
import Idealize.ShloMosaic.PureOps.Ideal
import Idealize.ShloMosaic.Lib.ValueIdx

noncomputable section

open scoped BigOperators

namespace Cert.Spec

open Idealize.ShloMosaic Idealize.ShloMosaic.ValueIdx

/-- The shapes of the arrays, as literals. -/
abbrev Nodes128 : Shape := ⟨2, ![50000, 128]⟩
abbrev Nodes1 : Shape := ⟨2, ![50000, 1]⟩
abbrev Sq128 : Shape := ⟨2, ![128, 128]⟩
abbrev Row128 : Shape := ⟨2, ![1, 128]⟩

/-- One layer's linear combination at node n and output feature j: the scaled neighbourhood sum times the left
    weights, plus the bias, plus the node's own features times the right weights, added in that order. -/
def layer (agg : Nodes128.Idx → EReal) (s : Nodes1.Idx → EReal) (x : Nodes128.Idx → EReal)
    (wl : Sq128.Idx → EReal) (b : Row128.Idx → EReal) (wr : Sq128.Idx → EReal) (n : Fin 50000) (j : Fin 128) : EReal :=
  ((∑ k : Fin 128, (agg (ix2 n k) * s (ix2 n (0 : Fin 1))) * wl (ix2 k j)) + b (ix2 (0 : Fin 1) j))
    + ∑ k : Fin 128, x (ix2 n k) * wr (ix2 k j)

/-- The first layer's output array: the positive part of the layer, entry by entry (the floor is the value of
    the zero word, kept as written). -/
def hidden (agg : Nodes128.Idx → EReal) (s : Nodes1.Idx → EReal) (x : Nodes128.Idx → EReal)
    (wl : Sq128.Idx → EReal) (b : Row128.Idx → EReal) (wr : Sq128.Idx → EReal) : Nodes128.Idx → EReal :=
  fun i => max (layer agg s x wl b wr (i 0) (i 1)) (Ideal.ofBits .f32 0x00000000#32)

/-- The second layer followed by the classifier, as the array [50000, 128] the second kernel writes: at node n
    and column j, the sum over k of the layer's feature k times the classifier's entry (k, j), plus the
    classifier's bias at j. -/
def logits (agg : Nodes128.Idx → EReal) (s : Nodes1.Idx → EReal) (h : Nodes128.Idx → EReal)
    (wl : Sq128.Idx → EReal) (b : Row128.Idx → EReal) (wr : Sq128.Idx → EReal)
    (wc : Sq128.Idx → EReal) (bc : Row128.Idx → EReal) : Nodes128.Idx → EReal :=
  fun i => (∑ k : Fin 128, layer agg s h wl b wr (i 0) k * wc (ix2 k (i 1))) + bc (ix2 (0 : Fin 1) (i 1))

theorem hidden_apply (agg : Nodes128.Idx → EReal) (s : Nodes1.Idx → EReal) (x : Nodes128.Idx → EReal)
    (wl : Sq128.Idx → EReal) (b : Row128.Idx → EReal) (wr : Sq128.Idx → EReal) (n : Fin 50000) (j : Fin 128) :
    hidden agg s x wl b wr (ix2 n j) = max (layer agg s x wl b wr n j) (Ideal.ofBits .f32 0x00000000#32) := rfl

theorem logits_apply (agg : Nodes128.Idx → EReal) (s : Nodes1.Idx → EReal) (h : Nodes128.Idx → EReal)
    (wl : Sq128.Idx → EReal) (b : Row128.Idx → EReal) (wr : Sq128.Idx → EReal)
    (wc : Sq128.Idx → EReal) (bc : Row128.Idx → EReal) (n : Fin 50000) (j : Fin 128) :
    logits agg s h wl b wr wc bc (ix2 n j)
      = (∑ k : Fin 128, layer agg s h wl b wr n k * wc (ix2 k j)) + bc (ix2 (0 : Fin 1) j) := rfl

end Cert.Spec

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.Region0Payload.lean ====
/-
  The first layer's tile, entry by entry.

  One grid point of the first kernel holds a tile of 5000 nodes: the rows agg(p, ·) of the neighbourhood sums, the
  column s(p) of reciprocal degrees, the rows x(p, ·) of the nodes' own features, and the whole of the two weight
  matrices Wl, Wr and of the bias row b. What it stores at row p and feature q of the tile is

      max( ( Σ_k (agg(p, k) · s(p)) · Wl(k, q) + b(q) ) + Σ_k x(p, k) · Wr(k, q),  0 ).

  On the extended reals the changes of format (to the 16-bit format on the way into the products, and of the result) are
  the identity, a cast of a matrix to its own shape is the identity, the column s repeated along the rows reads s(p) at
  every feature, the bias row repeated over the nodes reads b(q) at every node, and a product accumulated from the zero
  constant is the plain sum over the contracted coordinate. Each of these is one lemma below; the last theorem puts them
  together in the order the kernel adds: the scaled product first, then the bias, then the self product, then the floor.
-/
import proofs.«170168_j15917148799635_2_alg».proof.Proof.Gen.KernelIdeal.Skeleton
import proofs.«170168_j15917148799635_2_alg».proof.Proof.LibPlainDot
import proofs.«170168_j15917148799635_2_alg».proof.Proof.LibColumn
import Idealize.ShloMosaic.Lib.ValueLayout

noncomputable section

open scoped BigOperators

namespace Cert.KernelIdeal.Region0

open Idealize.ShloMosaic Idealize.ShloMosaic.ValueIdx Cert.KernelIdeal Cert.KernelIdeal.Gen

/-- The dimension numbers of the tile's two products are those of the plain product of a [5000, 128] matrix by a
    [128, 128] matrix: the left operand contracted on its columns against the right operand's rows, no batch axis. -/
theorem dot_eq_plain : dot_S5000x128_S128x128_S5000x128_1_0_0_1_n_n = DotDims.plain 5000 128 128 := rfl

/-- The scaled neighbourhood sum at node p and feature k: the column of scales repeated along the rows reads s(p) at
    every k, so the entry is agg(p, k) · s(p). -/
theorem scaled_apply (agg : FVec Ideal S5000x128 .f32) (inv : FVec Ideal S5000x1 .f32) (p : Fin 5000) (k : Fin 128) :
    mulf (shapeCast S5000x128 agg shapeCasts_S5000x128_S5000x128)
        (broadcastTo S5000x128 (shapeCast S5000x1 inv shapeCasts_S5000x1_S5000x1) broadcasts_S5000x1_S5000x128) (ix2 p k)
      = agg (ix2 p k) * inv (ix2 p (0 : Fin 1)) := by
  rw [shapeCast_self, shapeCast_self]
  exact congrArg (agg (ix2 p k) * ·) (Cert.LibColumn.broadcastTo_a1_ab_apply inv broadcasts_S5000x1_S5000x128 p k)

/-- The bias row repeated over the 5000 nodes reads b(q) at every node p. -/
theorem bias_apply (b : FVec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [shapeCast_self]
  exact broadcastTo_1b_ab_apply b broadcasts_S1x128_S5000x128 p q

/-- The product of the scaled neighbourhood sums with the left weights, accumulated from zero, at (p, q):
    Σ_k (agg(p, k) · s(p)) · Wl(k, q). The narrowing of both operands is the identity on the extended reals. -/
theorem left_product_apply (agg : FVec Ideal S5000x128 .f32) (inv : FVec Ideal S5000x1 .f32) (wl : FVec Ideal S128x128 .f32)
    (p : Fin 5000) (q : Fin 128) :
    matmul dot_S5000x128_S128x128_S5000x128_1_0_0_1_n_n none
        (truncf .bf16 (mulf (shapeCast S5000x128 agg shapeCasts_S5000x128_S5000x128)
          (broadcastTo S5000x128 (shapeCast S5000x1 inv shapeCasts_S5000x1_S5000x1) broadcasts_S5000x1_S5000x128)) bitsLt_bf16_f32)
        (truncf .bf16 wl bitsLt_bf16_f32) (constant (F := Ideal) S5000x128 .f32 0x00000000#32) (ix2 p q)
      = ∑ k : Fin 128, (agg (ix2 p k) * inv (ix2 p (0 : Fin 1))) * wl (ix2 k q) := by
  refine (Cert.LibPlainDot.matmul_zero_apply (M := 5000) (K := 128) (N := 128) none _ _ p q).trans ?_
  exact Finset.sum_congr rfl fun k _ => congrArg (· * wl (ix2 k q)) (scaled_apply agg inv p k)

/-- The product of the nodes' own features with the right weights, accumulated from zero, at (p, q):
    Σ_k x(p, k) · Wr(k, q). -/
theorem right_product_apply (x : FVec Ideal S5000x128 .bf16) (wr : FVec Ideal S128x128 .f32) (p : Fin 5000) (q : Fin 128) :
    matmul dot_S5000x128_S128x128_S5000x128_1_0_0_1_n_n none
        (shapeCast S5000x128 x shapeCasts_S5000x128_S5000x128)
        (truncf .bf16 wr bitsLt_bf16_f32) (constant (F := Ideal) S5000x128 .f32 0x00000000#32) (ix2 p q)
      = ∑ k : Fin 128, x (ix2 p k) * wr (ix2 k q) := by
  rw [shapeCast_self]
  exact Cert.LibPlainDot.matmul_zero_apply (M := 5000) (K := 128) (N := 128) none _ _ p q

/-- WHAT THE TILE STORES at row p and feature q, from the six blocks it loaded (in the stored value's own argument
    order: neighbourhood sums, scales, own features, left weights, right weights, bias): the scaled product plus the bias,
    plus the self product, floored at the value of the zero word. The outer narrowing, the floor and the two sums read
    through entry by entry; the three non-pointwise terms are the lemmas above. -/
theorem pay_apply (agg : FVec Ideal S5000x128 .f32) (inv : FVec Ideal S5000x1 .f32) (x : FVec Ideal S5000x128 .bf16)
    (wl : FVec Ideal S128x128 .f32) (wr : FVec Ideal S128x128 .f32) (b : FVec Ideal S1x128 .f32) (p : Fin 5000) (q : Fin 128) :
    k0_pay1 (F := Ideal) agg inv x wl wr b (ix2 p q)
      = max (((∑ k : Fin 128, (agg (ix2 p k) * inv (ix2 p (0 : Fin 1))) * wl (ix2 k q)) + b (ix2 (0 : Fin 1) q))
          + ∑ k : Fin 128, x (ix2 p k) * wr (ix2 k q)) (Ideal.ofBits .f32 0x00000000#32) := by
  unfold k0_pay1
  exact congrArg₂ max
    (congrArg₂ (· + ·) (congrArg₂ (· + ·) (left_product_apply agg inv wl p q) (bias_apply b p q)) (right_product_apply x wr p q))
    rfl

end Cert.KernelIdeal.Region0

end
-- ==== Proof.Region0.lean ====
/-
  The first kernel's output array is the first layer, whole.

  The first kernel walks the 50000 nodes in ten tiles of 5000. At tile t it holds rows 5000·t … 5000·t + 4999 of the
  neighbourhood sums, of the column of scales and of the nodes' own features, and the whole of the two weight matrices
  and of the bias row; it stores one [5000, 128] tile and writes it back to rows 5000·t … 5000·t + 4999 of the output.

  The tile it stores is, entry by entry, the layer's formula on the blocks it holds (the module on the stored value).
  Row p of a block at tile t is row 5000·t + p of its array, and the weights and the bias are read whole, so the entry
  (p, q) of tile t is the layer at node 5000·t + p and feature q: every tile written back is the tile of ONE function
  of the whole input arrays, `Cert.Spec.hidden`. Node r lies in tile r / 5000, so the ten tiles cover the array, and an
  array every entry of which was written from one function holds that function at the end.

  The arrays are whatever the accelerator's buffers hold when the kernel is entered; nothing is assumed of them.
-/
import proofs.«170168_j15917148799635_2_alg».proof.Proof.Gen.KernelIdeal.Frame
import proofs.«170168_j15917148799635_2_alg».proof.Proof.Spec
import proofs.«170168_j15917148799635_2_alg».proof.Proof.Region0Payload
import Idealize.ShloMosaic.Lib.Pipeline.Value
import Idealize.ShloMosaic.Lib.ValueIdx

noncomputable section

open scoped BigOperators

namespace Cert.KernelIdeal.Region0

open Idealize.ShloMosaic Idealize.ShloMosaic.TcCoe Idealize.SL.Sem Cert.KernelIdeal Cert.KernelIdeal.Gen
open Idealize.ShloMosaic.ValueIdx
open Idealize.ShloMosaic.Pipeline (Dat)

section Tiles

-- the contents of the accelerator's buffers when the kernel is entered: arbitrary
variable (V : (c : Dev nD) → (b : Ref sig .tc) → Buf (Elt Ideal) ((c : Thread nD τ).loc b))

/-- The offsets of the tile's loads and of its one store are zero on both axes. -/
theorem zero_offsets : (![0, 0] : Fin 2 → Nat) = fun _ => 0 := funext fun a => by fin_cases a <;> rfl

/-- The first layer of the arrays the kernel finds: neighbourhood sums, scales, own features, left weights, bias row,
    right weights, in the specification's order. -/
abbrev hiddenArray (c : Dev nD) : Cert.Spec.Nodes128.Idx → EReal :=
  Cert.Spec.hidden (V c main_v31) (V c main_v20) (V c main_v11) (V c main_arg3) (V c main_v32) (V c main_arg5)

/-! ## Where tile t's blocks sit in their arrays -/

/-- The block indices at tile t, for all ten tiles at once: the three node-indexed inputs and the output are at block
    row t and block column 0; the two weight matrices and the bias row are at block (0, 0), their only block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry y of tile t's block of neighbourhood sums is the array's entry k whenever k is y moved down by 5000·t rows:
    on each axis a block's entry sits at block index × block extent + its coordinate inside the block. -/
theorem agg_tile_apply (c : Dev nD) (t : Fin cfg0.N) (y : S5000x128.Idx) (k : S50000x128.Idx)
    (hk0 : (k 0).val = t.val * 5000 + (y 0).val) (hk1 : (k 1).val = (y 1).val) :
    (iblk0 V c 0 t : Vec Ideal S5000x128 .f32) y = (V c main_v31 : S50000x128.Idx → EReal) k := by
  obtain ⟨e0, e1, -⟩ := block_index t
  unfold iblk0
  rw [View.read_apply]
  show V c main_v31 _ = V c main_v31 _
  refine congrArg _ ?_
  funext a; apply Fin.ext
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

/-- The same for the column of scales; its second axis has one coordinate, so only the row is asked. -/
theorem scale_tile_apply (c : Dev nD) (t : Fin cfg0.N) (y : S5000x1.Idx) (k : S50000x1.Idx)
    (hk0 : (k 0).val = t.val * 5000 + (y 0).val) :
    (iblk0 V c 1 t : Vec Ideal S5000x1 .f32) y = (V c main_v20 : S50000x1.Idx → EReal) k := by
  obtain ⟨-, -, e0, e1, -⟩ := block_index t
  unfold iblk0
  rw [View.read_apply]
  show V c main_v20 _ = V c main_v20 _
  refine congrArg _ ?_
  funext a; apply Fin.ext
  match a with
  | ⟨0, _⟩ => show win0_1.index t 0 * 5000 + 1 * (y 0).val = (k 0).val; rw [e0, hk0]; omega
  | ⟨1, _⟩ =>
    show win0_1.index t 1 * 1 + 1 * (y 1).val = (k 1).val
    have hy : (y 1).val < 1 := (y 1).isLt
    have hk : (k 1).val < 1 := (k 1).isLt
    rw [e1]; omega

/-- The same for the nodes' own features. -/
theorem feature_tile_apply (c : Dev nD) (t : Fin cfg0.N) (y : S5000x128.Idx) (k : S50000x128.Idx)
    (hk0 : (k 0).val = t.val * 5000 + (y 0).val) (hk1 : (k 1).val = (y 1).val) :
    (iblk0 V c 2 t : Vec Ideal S5000x128 .bf16) y = (V c main_v11 : S50000x128.Idx → EReal) k := by
  obtain ⟨-, -, -, -, e0, e1, -⟩ := block_index t
  unfold iblk0
  rw [View.read_apply]
  show V c main_v11 _ = V c main_v11 _
  refine congrArg _ ?_
  funext a; apply Fin.ext
  match a with
  | ⟨0, _⟩ => show win0_2.index t 0 * 5000 + 1 * (y 0).val = (k 0).val; rw [e0, hk0]; omega
  | ⟨1, _⟩ => show win0_2.index t 1 * 128 + 1 * (y 1).val = (k 1).val; rw [e1, hk1]; omega

/-- Every tile reads the left weight matrix whole: its one block, at (0, 0), is the matrix. -/
theorem left_weights_tile (c : Dev nD) (t : Fin cfg0.N) :
    (iblk0 V c 3 t : Vec Ideal S128x128 .f32) = (V c main_arg3 : S128x128.Idx → EReal) := by
  obtain ⟨-, -, -, -, -, -, e0, e1, -⟩ := block_index t
  funext y
  unfold iblk0
  rw [View.read_apply]
  show V c main_arg3 _ = V c main_arg3 _
  refine congrArg _ ?_
  funext a; apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- Every tile reads the bias row whole. -/
theorem bias_tile (c : Dev nD) (t : Fin cfg0.N) :
    (iblk0 V c 4 t : Vec Ideal S1x128 .f32) = (V c main_v32 : S1x128.Idx → EReal) := by
  obtain ⟨-, -, -, -, -, -, -, -, e0, e1, -⟩ := block_index t
  funext y
  unfold iblk0
  rw [View.read_apply]
  show V c main_v32 _ = V c main_v32 _
  refine congrArg _ ?_
  funext a; apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-- Every tile reads the right weight matrix whole. -/
theorem right_weights_tile (c : Dev nD) (t : Fin cfg0.N) :
    (iblk0 V c 5 t : Vec Ideal S128x128 .f32) = (V c main_arg5 : S128x128.Idx → EReal) := by
  obtain ⟨-, -, -, -, -, -, -, -, -, -, e0, e1, -⟩ := block_index t
  funext y
  unfold iblk0
  rw [View.read_apply]
  show V c main_arg5 _ = V c main_arg5 _
  refine congrArg _ ?_
  funext a; apply Fin.ext
  match a with
  | ⟨0, _⟩ => show win0_5.index t 0 * 128 + 1 * (y 0).val = (y 0).val; rw [e0]; omega
  | ⟨1, _⟩ => show win0_5.index t 1 * 128 + 1 * (y 1).val = (y 1).val; rw [e1]; omega

/-! ## One tile is a tile of the layer -/

omit V in
/-- Let the three node-indexed blocks be rows 5000·r … 5000·r + 4999 of arrays agg, s, x, and the other three blocks be
    the whole of wl, b, wr. Then the stored value at entry j of the tile is the first layer of those arrays at the entry i
    that is j moved down by 5000·r rows: with j = (p, q) and i = (n, q), n = 5000·r + p, both sides are
    max( (Σ_k (agg(n, k) · s(n)) · wl(k, q) + b(q)) + Σ_k x(n, k) · wr(k, q), 0 ), the left one read off the blocks. -/
theorem tile_is_hidden (agg : Cert.Spec.Nodes128.Idx → EReal) (s : Cert.Spec.Nodes1.Idx → EReal)
    (x : Cert.Spec.Nodes128.Idx → EReal) (wl : Cert.Spec.Sq128.Idx → EReal) (b : Cert.Spec.Row128.Idx → EReal)
    (wr : Cert.Spec.Sq128.Idx → EReal)
    (a0 : FVec Ideal S5000x128 .f32) (a1 : FVec Ideal S5000x1 .f32) (a2 : FVec Ideal S5000x128 .bf16)
    (a3 : FVec Ideal S128x128 .f32) (a4 : FVec Ideal S1x128 .f32) (a5 : FVec Ideal S128x128 .f32) (r : Nat)
    (h0 : ∀ (y : S5000x128.Idx) (k : S50000x128.Idx), (k 0).val = r * 5000 + (y 0).val → (k 1).val = (y 1).val → a0 y = agg k)
    (h1 : ∀ (y : S5000x1.Idx) (k : S50000x1.Idx), (k 0).val = r * 5000 + (y 0).val → a1 y = s k)
    (h2 : ∀ (y : S5000x128.Idx) (k : S50000x128.Idx), (k 0).val = r * 5000 + (y 0).val → (k 1).val = (y 1).val → a2 y = x k)
    (h3 : a3 = wl) (h4 : a4 = b) (h5 : a5 = wr)
    (j : S5000x128.Idx) (i : S50000x128.Idx) (hi0 : (i 0).val = r * 5000 + (j 0).val) (hi1 : (i 1).val = (j 1).val) :
    k0_pay1 (F := Ideal) a0 a1 a2 a3 a5 a4 j = Cert.Spec.hidden agg s x wl b wr i := by
  obtain ⟨p, q, rfl⟩ : ∃ (p : Fin 5000) (q : Fin 128), j = ix2 p q := ⟨j 0, j 1, eq_ix2 j⟩
  obtain ⟨n, q', rfl⟩ : ∃ (n : Fin 50000) (q' : Fin 128), i = ix2 n q' := ⟨i 0, i 1, eq_ix2 i⟩
  obtain rfl : q' = q := Fin.ext hi1
  subst h3 h4 h5
  rw [pay_apply, Cert.Spec.hidden_apply]
  unfold Cert.Spec.layer
  have e1 : a1 (ix2 p (0 : Fin 1)) = s (ix2 n (0 : Fin 1)) := h1 _ _ hi0
  have e0 : ∀ k : Fin 128, a0 (ix2 p k) = agg (ix2 n k) := fun k => h0 _ _ hi0 rfl
  have e2 : ∀ k : Fin 128, a2 (ix2 p k) = x (ix2 n k) := fun k => h2 _ _ hi0 rfl
  simp only [e0, e1, e2]

/-- WHAT TILE t WRITES BACK is tile t of the first layer of the arrays the kernel found. The output's buffer after the
    body is the one stored value (one store through the whole buffer, of the six blocks loaded whole); entry j of it
    lands at row 5000·t + (j's row) of the output, which is where `tile_is_hidden` reads the layer, the blocks being
    tile t's by the six lemmas above. -/
theorem written_back_eq (c : Dev nD) (t : Fin cfg0.N) :
    (dat0 (F := Ideal) V c).flushed 6 t = ((cfg0.win 6).blk t).view.read (Elt Ideal) (hiddenArray V c) := by
  show (cfg0.win 6).cut (grid0.coords t) ((dat0 V c).after 6 t) = _
  rw [after0_6]
  unfold out0_6
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  obtain ⟨-, -, -, -, -, -, -, -, -, -, -, -, e0, e1⟩ := block_index t
  funext j
  show k0_pay1 (F := Ideal) (iblk0 V c 0 t) (iblk0 V c 1 t) (iblk0 V c 2 t) (iblk0 V c 3 t) (iblk0 V c 5 t) (iblk0 V c 4 t) j
    = hiddenArray V c (((cfg0.win 6).blk t).view.emb j)
  refine tile_is_hidden (V c main_v31) (V c main_v20) (V c main_v11) (V c main_arg3) (V c main_v32) (V c main_arg5)
    (iblk0 V c 0 t) (iblk0 V c 1 t) (iblk0 V c 2 t) (iblk0 V c 3 t) (iblk0 V c 4 t) (iblk0 V c 5 t) t.val
    (agg_tile_apply V c t) (scale_tile_apply V c t) (feature_tile_apply V c t)
    (left_weights_tile V c t) (bias_tile V c t) (right_weights_tile V c t) j _ ?_ ?_
  · show win0_6.index t 0 * 5000 + 1 * (j 0).val = t.val * 5000 + (j 0).val
    rw [e0]; omega
  · show win0_6.index t 1 * 128 + 1 * (j 1).val = (j 1).val
    rw [e1]; omega

/-! ## The ten tiles cover the output -/

omit V in
/-- An entry of the output array is in tile t's block iff each coordinate is in the block's range on its axis. -/
theorem mem_tile (t : Fin cfg0.N) (i : S50000x128.Idx) :
    i ∈ ((cfg0.win 6).blk t).view.set
      ↔ ∀ a : Fin 2, win0_6.index t a * S5000x128.size a ≤ (i a).val
          ∧ (i a).val < win0_6.index t a * S5000x128.size a + S5000x128.size a := by
  show i ∈ ((View.whole main_v33).slice (win0_6.rect t)).set ↔ _
  rw [View.set_slice_whole, Rect.mem_set_unit]
  exact Iff.rfl

omit V in
/-- Node r is written by tile r / 5000: 5000 · (r / 5000) ≤ r < 5000 · (r / 5000) + 5000, and r < 50000 puts the
    quotient below ten; every feature is inside the block's 128 columns. Every tile is written back. -/
theorem tiles_cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 10 := N_0
  have ht : (i 0).val / 5000 < grid0.N := by rw [hN]; omega
  obtain ⟨-, -, -, -, -, -, -, -, -, -, -, -, e0, e1⟩ := block_index ⟨(i 0).val / 5000, ht⟩
  refine ⟨⟨(i 0).val / 5000, ht⟩, flush0_6 _, ?_⟩
  rw [mem_tile]
  intro a
  match a with
  | ⟨0, _⟩ =>
    show win0_6.index ⟨(i 0).val / 5000, ht⟩ 0 * 5000 ≤ (i 0).val
      ∧ (i 0).val < win0_6.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win0_6.index ⟨(i 0).val / 5000, ht⟩ 1 * 128 ≤ (i 1).val
      ∧ (i 1).val < win0_6.index ⟨(i 0).val / 5000, ht⟩ 1 * 128 + 128
    rw [e1]; omega

end Tiles

/-! ## The output array after the last tile -/

/-- THE FIRST KERNEL'S OUTPUT, whatever the buffers held when it was entered: after the ten tiles the output array is
    the first layer of the input arrays, entry by entry. Every tile written back is a tile of that one function
    (`written_back_eq`) and the tiles cover the array (`tiles_cover`), so a later tile never disturbs an earlier one's
    entries and no entry keeps what the array held before. -/
theorem final (V : (c : Dev nD) → (b : Ref sig .tc) → Buf (Elt Ideal) ((c : Thread nD τ).loc b)) (c : Dev nD) :
    (dat0 (F := Ideal) V c).arrAt 6 cfg0.N
      = Cert.Spec.hidden (V c main_v31) (V c main_v20) (V c main_v11) (V c main_arg3) (V c main_v32) (V c main_arg5) :=
  (dat0 (F := Ideal) V c).arrAt_eq_of_cover 6 (hiddenArray V c) (fun t _ => written_back_eq V c t) tiles_cover

end Cert.KernelIdeal.Region0

end
-- ==== Proof.Region1Payload.lean ====
/-
  The second kernel's stored value, read at one entry of a block.

  At one grid point the kernel holds a block of 2000 nodes: the neighbourhood sums agg [2000, 128], the scales
  s [2000, 1], the nodes' own features h [2000, 128], and the whole of the two weight matrices, the bias row, the
  classifier matrix and the classifier's bias row. What it stores at row p and column q of the block is

      ( Σ_k L(p, k) · Wc(k, q) ) + bc(0, q),
      L(p, k) = ( Σ_l (agg(p, l) · s(p, 0)) · Wl(l, k) + b(0, k) ) + Σ_l h(p, l) · Wr(l, k).

  On the extended reals a change of float format is the identity, a cast to the same shape is the identity, a
  product into the zero accumulator is the plain sum over the contracted axis, a column repeated along the rows
  reads the column at the row, and a row repeated down the rows reads the row at the column.
-/
import proofs.«170168_j15917148799635_2_alg».proof.Proof.Gen.KernelIdeal.Skeleton
import proofs.«170168_j15917148799635_2_alg».proof.Proof.Spec
import proofs.«170168_j15917148799635_2_alg».proof.Proof.LibPlainDot
import proofs.«170168_j15917148799635_2_alg».proof.Proof.LibColumn
import Idealize.ShloMosaic.Lib.ValueIdx
import Idealize.ShloMosaic.Lib.ValueLayout
import Idealize.ShloMosaic.Lib.Pipeline.Value

noncomputable section

open scoped BigOperators

namespace Cert.KernelIdeal.Region1

open Idealize.ShloMosaic Idealize.ShloMosaic.ValueIdx Cert.KernelIdeal Cert.KernelIdeal.Gen

/-! ## The operations that are not entry by entry -/

/-- A row [1, 128] cast to its own shape and repeated down 2000 rows reads, at (p, q), the row at q. -/
theorem row_apply (v : Vec Ideal S1x128 .f32) (p : Fin 2000) (q : Fin 128) :
    broadcastTo S2000x128 (shapeCast S1x128 v shapeCasts_S1x128_S1x128) broadcasts_S1x128_S2000x128 (ix2 p q)
      = v (ix2 (0 : Fin 1) q) :=
  (broadcastTo_1b_ab_apply _ broadcasts_S1x128_S2000x128 p q).trans
    (congrFun (shapeCast_self v shapeCasts_S1x128_S1x128) _)

/-- A column [2000, 1] cast to its own shape and repeated along 128 columns reads, at (p, q), the column at p. -/
theorem column_apply (v : Vec Ideal S2000x1 .f32) (p : Fin 2000) (q : Fin 128) :
    broadcastTo S2000x128 (shapeCast S2000x1 v shapeCasts_S2000x1_S2000x1) broadcasts_S2000x1_S2000x128 (ix2 p q)
      = v (ix2 p (0 : Fin 1)) :=
  (Cert.LibColumn.broadcastTo_a1_ab_apply _ broadcasts_S2000x1_S2000x128 p q).trans
    (congrFun (shapeCast_self v shapeCasts_S2000x1_S2000x1) _)

/-- The kernel's matrix product [2000, 128] · [128, 128] into the zero accumulator, at (p, q): the sum over the
    contracted axis. Its dimension numbers are the plain ones. -/
theorem product_apply {φ₁ φ₂ : FTy} (lhs : FVec Ideal S2000x128 φ₁) (rhs : FVec Ideal S128x128 φ₂) (p : Fin 2000) (q : Fin 128) :
    matmul dot_S2000x128_S128x128_S2000x128_1_0_0_1_n_n none lhs rhs (constant (F := Ideal) S2000x128 .f32 0x00000000#32) (ix2 p q)
      = ∑ k : Fin 128, lhs (ix2 p k) * rhs (ix2 k q) :=
  Cert.LibPlainDot.matmul_zero_apply (M := 2000) (K := 128) (N := 128) none lhs rhs p q

/-! ## The stored value at an entry -/

/-- One layer's value at row p of the block and feature k, from the block's entries. -/
def blockLayer (agg : Vec Ideal S2000x128 .f32) (s : Vec Ideal S2000x1 .f32) (h : Vec Ideal S2000x128 .bf16)
    (wl : Vec Ideal S128x128 .f32) (wr : Vec Ideal S128x128 .f32) (b : Vec Ideal S1x128 .f32) (p : Fin 2000) (k : Fin 128) : EReal :=
  ((∑ l : Fin 128, (agg (ix2 p l) * s (ix2 p (0 : Fin 1))) * wl (ix2 l k)) + b (ix2 (0 : Fin 1) k))
    + ∑ l : Fin 128, h (ix2 p l) * wr (ix2 l k)

/-- The value the kernel stores, at row p and column q of the block. -/
theorem stored_apply (agg : Vec Ideal S2000x128 .f32) (s : Vec Ideal S2000x1 .f32) (h : Vec Ideal S2000x128 .bf16)
    (wl : Vec Ideal S128x128 .f32) (wr : Vec Ideal S128x128 .f32) (b : Vec Ideal S1x128 .f32)
    (wc : Vec Ideal S128x128 .f32) (bc : Vec Ideal S1x128 .f32) (p : Fin 2000) (q : Fin 128) :
    k1_pay1 (F := Ideal) agg s h wl wr b wc bc (ix2 p q)
      = (∑ k : Fin 128, blockLayer agg s h wl wr b p k * wc (ix2 k q)) + bc (ix2 (0 : Fin 1) q) := by
  unfold k1_pay1
  -- the last addition, entry by entry: the product with the classifier, and its bias row
  refine congrArg₂ (· + ·) ((product_apply _ _ p q).trans (Finset.sum_congr rfl fun k _ => ?_)) (row_apply bc p q)
  -- the classifier matrix is cast to its own shape; the layer's value at (p, k)
  refine congrArg₂ (· * ·) ?_ (congrFun (shapeCast_self wc shapeCasts_S128x128_S128x128) _)
  unfold blockLayer
  refine congrArg₂ (· + ·) (congrArg₂ (· + ·) ((product_apply _ _ p k).trans (Finset.sum_congr rfl fun l _ => ?_)) (row_apply b p k))
    ((product_apply _ _ p k).trans (Finset.sum_congr rfl fun l _ => ?_))
  · -- the scaled neighbourhood sum at (p, l)
    refine congrArg₂ (· * ·) (congrArg₂ (· * ·) (congrFun (shapeCast_self agg shapeCasts_S2000x128_S2000x128) _) (column_apply s p l)) rfl
  · -- the node's own features at (p, l)
    refine congrArg₂ (· * ·) (congrFun (shapeCast_self h shapeCasts_S2000x128_S2000x128) _) rfl

/-! ## The stored value against the whole arrays -/

/-- When the block's rows are rows n of the whole arrays (the neighbourhood sums, the scale and the features of
    node n at block row p) and the weights and biases are the whole arrays themselves, the value stored at
    (p, q) is the specification's entry (n, q). -/
theorem stored_eq_logits (agg : Vec Ideal S2000x128 .f32) (s : Vec Ideal S2000x1 .f32) (h : Vec Ideal S2000x128 .bf16)
    (wl : Vec Ideal S128x128 .f32) (wr : Vec Ideal S128x128 .f32) (b : Vec Ideal S1x128 .f32)
    (wc : Vec Ideal S128x128 .f32) (bc : Vec Ideal S1x128 .f32)
    (Agg : Cert.Spec.Nodes128.Idx → EReal) (Sc : Cert.Spec.Nodes1.Idx → EReal) (H : Cert.Spec.Nodes128.Idx → EReal)
    (p : Fin 2000) (q : Fin 128) (n : Fin 50000)
    (hagg : ∀ l : Fin 128, agg (ix2 p l) = Agg (ix2 n l)) (hs : s (ix2 p (0 : Fin 1)) = Sc (ix2 n (0 : Fin 1)))
    (hh : ∀ l : Fin 128, h (ix2 p l) = H (ix2 n l)) :
    k1_pay1 (F := Ideal) agg s h wl wr b wc bc (ix2 p q) = Cert.Spec.logits Agg Sc H wl b wr wc bc (ix2 n q) := by
  rw [stored_apply, Cert.Spec.logits_apply]
  refine congrArg (· + bc (ix2 (0 : Fin 1) q)) (Finset.sum_congr rfl fun k _ => congrArg (· * wc (ix2 k q)) ?_)
  unfold blockLayer Cert.Spec.layer
  rw [hs]
  refine congrArg₂ (· + ·) (congrArg (· + b (ix2 (0 : Fin 1) k)) (Finset.sum_congr rfl fun l _ => ?_))
    (Finset.sum_congr rfl fun l _ => ?_)
  · rw [hagg l]
  · rw [hh l]

end Cert.KernelIdeal.Region1

end
-- ==== Proof.Region1.lean ====
/-
  The second kernel's output array after all 25 grid points, as one function of the arrays it reads.

  Grid point t holds rows 2000·t … 2000·t + 1999 of the three node arrays (the neighbourhood sums, the scales, the
  features) and the whole of the five weight and bias arrays, and writes rows 2000·t … 2000·t + 1999 of the output.
  What it stores at block row p and column q is the specification's entry (2000·t + p, q) of those arrays, so the
  block written back at point t is that block of the specification's array; the 25 blocks cover the 50000 rows
  (row r lies in block r / 2000), so the output array ends as the specification's array.
-/
import proofs.«170168_j15917148799635_2_alg».proof.Proof.Gen.KernelIdeal.Frame
import proofs.«170168_j15917148799635_2_alg».proof.Proof.Spec
import proofs.«170168_j15917148799635_2_alg».proof.Proof.Region1Payload
import Idealize.ShloMosaic.Lib.Pipeline.Value

noncomputable section

namespace Cert.KernelIdeal.Region1

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- The zero offsets of the body's loads and of its store, spelt as a function. -/
theorem zero_offsets : (![0, 0] : Fin 2 → Nat) = fun _ => 0 := funext fun a => by fin_cases a <;> rfl

/-! ## Where the blocks sit -/

/-- The block indices at grid point t, decided over the 25 points: the three node windows and the output window
    are at block row t, block column 0; the five weight and bias windows are at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-! ## The input blocks, read off the arrays -/

/-- Entry (p, l) of the block of neighbourhood sums at point t is entry (2000·t + p, l) of the array: on each
    axis a block's entry sits at the block index times the block's extent plus the coordinate inside the block. -/
theorem agg_block (c : Dev nD) (t : Fin cfg1.N) (p : Fin 2000) (l : Fin 128) (n : Fin 50000)
    (hn : n.val = t.val * 2000 + p.val) :
    (iblk1 V c 0 t : Vec Ideal S2000x128 .f32) (ix2 p l) = (V c main_v44 : Cert.Spec.Nodes128.Idx → EReal) (ix2 n l) := by
  obtain ⟨e0, e1, -⟩ := block_indices t
  show V c main_v44 (((cfg1.win 0).blk t).view.emb (ix2 p l)) = V c main_v44 (ix2 n l)
  refine congrArg (V c main_v44) (funext fun a => Fin.ext ?_)
  match a with
  | ⟨0, _⟩ => show win1_0.index t (0 : Fin 2) * 2000 + 1 * p.val = n.val; omega
  | ⟨1, _⟩ => show win1_0.index t (1 : Fin 2) * 128 + 1 * l.val = l.val; omega

/-- Entry (p, 0) of the block of scales at point t is entry (2000·t + p, 0) of the column of scales. -/
theorem scale_block (c : Dev nD) (t : Fin cfg1.N) (p : Fin 2000) (n : Fin 50000)
    (hn : n.val = t.val * 2000 + p.val) :
    (iblk1 V c 1 t : Vec Ideal S2000x1 .f32) (ix2 p (0 : Fin 1)) = (V c main_v20 : Cert.Spec.Nodes1.Idx → EReal) (ix2 n (0 : Fin 1)) := by
  obtain ⟨-, -, e0, e1, -⟩ := block_indices t
  show V c main_v20 (((cfg1.win 1).blk t).view.emb (ix2 p (0 : Fin 1))) = V c main_v20 (ix2 n (0 : Fin 1))
  refine congrArg (V c main_v20) (funext fun a => Fin.ext ?_)
  match a with
  | ⟨0, _⟩ => show win1_1.index t (0 : Fin 2) * 2000 + 1 * p.val = n.val; omega
  | ⟨1, _⟩ => show win1_1.index t (1 : Fin 2) * 1 + 1 * 0 = 0; omega

/-- Entry (p, l) of the block of node features at point t is entry (2000·t + p, l) of the array. -/
theorem feature_block (c : Dev nD) (t : Fin cfg1.N) (p : Fin 2000) (l : Fin 128) (n : Fin 50000)
    (hn : n.val = t.val * 2000 + p.val) :
    (iblk1 V c 2 t : Vec Ideal S2000x128 .bf16) (ix2 p l) = (V c main_v33 : Cert.Spec.Nodes128.Idx → EReal) (ix2 n l) := by
  obtain ⟨-, -, -, -, e0, e1, -⟩ := block_indices t
  show V c main_v33 (((cfg1.win 2).blk t).view.emb (ix2 p l)) = V c main_v33 (ix2 n l)
  refine congrArg (V c main_v33) (funext fun a => Fin.ext ?_)
  match a with
  | ⟨0, _⟩ => show win1_2.index t (0 : Fin 2) * 2000 + 1 * p.val = n.val; omega
  | ⟨1, _⟩ => show win1_2.index t (1 : Fin 2) * 128 + 1 * l.val = l.val; omega

/-- The left weights' block at every point is the whole matrix: its block index is (0, 0). -/
theorem left_weights_block (c : Dev nD) (t : Fin cfg1.N) :
    (iblk1 V c 3 t : Vec Ideal S128x128 .f32) = (V c main_arg6 : Cert.Spec.Sq128.Idx → EReal) := by
  obtain ⟨-, -, -, -, -, -, e0, e1, -⟩ := block_indices t
  funext y
  show V c main_arg6 (((cfg1.win 3).blk t).view.emb y) = V c main_arg6 y
  refine congrArg (V c main_arg6) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias row's block at every point is the whole row. -/
theorem bias_block (c : Dev nD) (t : Fin cfg1.N) :
    (iblk1 V c 4 t : Vec Ideal S1x128 .f32) = (V c main_v45 : Cert.Spec.Row128.Idx → EReal) := by
  obtain ⟨-, -, -, -, -, -, -, -, e0, e1, -⟩ := block_indices t
  funext y
  show V c main_v45 (((cfg1.win 4).blk t).view.emb y) = V c main_v45 y
  refine congrArg (V c main_v45) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The right weights' block at every point is the whole matrix. -/
theorem right_weights_block (c : Dev nD) (t : Fin cfg1.N) :
    (iblk1 V c 5 t : Vec Ideal S128x128 .f32) = (V c main_arg8 : Cert.Spec.Sq128.Idx → EReal) := by
  obtain ⟨-, -, -, -, -, -, -, -, -, -, e0, e1, -⟩ := block_indices t
  funext y
  show V c main_arg8 (((cfg1.win 5).blk t).view.emb y) = V c main_arg8 y
  refine congrArg (V c main_arg8) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- The classifier matrix's block at every point is the whole matrix. -/
theorem classifier_block (c : Dev nD) (t : Fin cfg1.N) :
    (iblk1 V c 6 t : Vec Ideal S128x128 .f32) = (V c main_v48 : Cert.Spec.Sq128.Idx → EReal) := by
  obtain ⟨-, -, -, -, -, -, -, -, -, -, -, -, e0, e1, -⟩ := block_indices t
  funext y
  show V c main_v48 (((cfg1.win 6).blk t).view.emb y) = V c main_v48 y
  refine congrArg (V c main_v48) (funext fun a => Fin.ext ?_)
  match a with
  | ⟨0, _⟩ => show win1_6.index t (0 : Fin 2) * 128 + 1 * (y 0).val = (y 0).val; omega
  | ⟨1, _⟩ => show win1_6.index t (1 : Fin 2) * 128 + 1 * (y 1).val = (y 1).val; omega

/-- The classifier's bias row's block at every point is the whole row. -/
theorem classifier_bias_block (c : Dev nD) (t : Fin cfg1.N) :
    (iblk1 V c 7 t : Vec Ideal S1x128 .f32) = (V c main_v52 : Cert.Spec.Row128.Idx → EReal) := by
  obtain ⟨-, -, -, -, -, -, -, -, -, -, -, -, -, -, e0, e1, -⟩ := block_indices t
  funext y
  show V c main_v52 (((cfg1.win 7).blk t).view.emb y) = V c main_v52 y
  refine congrArg (V c main_v52) (funext fun a => Fin.ext ?_)
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- Entry (p, q) of the output's block at point t sits at (2000·t + p, q) of the output array. -/
theorem output_block_entry (t : Fin cfg1.N) (p : Fin 2000) (q : Fin 128) (n : Fin 50000)
    (hn : n.val = t.val * 2000 + p.val) :
    ((cfg1.win 8).blk t).view.emb (ix2 p q) = (ix2 n q : S50000x128.Idx) := by
  obtain ⟨-, -, -, -, -, -, -, -, -, -, -, -, -, -, -, -, e0, e1⟩ := block_indices t
  refine funext fun a => Fin.ext ?_
  match a with
  | ⟨0, _⟩ => show win1_8.index t (0 : Fin 2) * 2000 + 1 * p.val = n.val; omega
  | ⟨1, _⟩ => show win1_8.index t (1 : Fin 2) * 128 + 1 * q.val = q.val; omega

/-! ## What a grid point writes back -/

/-- The value stored at block row p and column q, over any blocks whose node rows are rows n of the node arrays
    and whose weight and bias blocks are the whole arrays: the specification's entry (n, q). The stored value
    takes the right weights before the bias row; the specification takes the bias row first. -/
theorem stored_at_rows (x0 : Vec Ideal S2000x128 .f32) (x1 : Vec Ideal S2000x1 .f32) (x2 : Vec Ideal S2000x128 .bf16)
    (x3 : Vec Ideal S128x128 .f32) (x4 : Vec Ideal S1x128 .f32) (x5 : Vec Ideal S128x128 .f32)
    (x6 : Vec Ideal S128x128 .f32) (x7 : Vec Ideal S1x128 .f32)
    (Agg : Cert.Spec.Nodes128.Idx → EReal) (Sc : Cert.Spec.Nodes1.Idx → EReal) (H : Cert.Spec.Nodes128.Idx → EReal)
    (Wl : Cert.Spec.Sq128.Idx → EReal) (B : Cert.Spec.Row128.Idx → EReal) (Wr : Cert.Spec.Sq128.Idx → EReal)
    (Wc : Cert.Spec.Sq128.Idx → EReal) (Bc : Cert.Spec.Row128.Idx → EReal)
    (p : Fin 2000) (q : Fin 128) (n : Fin 50000)
    (h0 : ∀ l : Fin 128, x0 (ix2 p l) = Agg (ix2 n l)) (h1 : x1 (ix2 p (0 : Fin 1)) = Sc (ix2 n (0 : Fin 1)))
    (h2 : ∀ l : Fin 128, x2 (ix2 p l) = H (ix2 n l))
    (h3 : x3 = Wl) (h4 : x4 = B) (h5 : x5 = Wr) (h6 : x6 = Wc) (h7 : x7 = Bc) :
    k1_pay1 (F := Ideal) x0 x1 x2 x3 x5 x4 x6 x7 (ix2 p q) = Cert.Spec.logits Agg Sc H Wl B Wr Wc Bc (ix2 n q) := by
  subst h3 h4 h5 h6 h7
  exact stored_eq_logits x0 x1 x2 x3 x5 x4 x6 x7 Agg Sc H p q n h0 h1 h2

/-- WHAT POINT t WRITES BACK is block t of the specification's array of the arrays as the region finds them. -/
theorem written_back (c : Dev nD) (t : Fin cfg1.N) :
    (dat1 (F := Ideal) V c).flushed 8 t = ((cfg1.win 8).blk t).view.read (Elt Ideal)
      (Cert.Spec.logits (V c main_v44) (V c main_v20) (V c main_v33) (V c main_arg6) (V c main_v45) (V c main_arg8)
          (V c main_v48) (V c main_v52)) := by
  show (cfg1.win 8).cut (grid1.coords t) ((dat1 V c).after 8 t) = _
  rw [after1_8]
  unfold out1_8
  rw [View.canon_unit_zero zero_offsets]
  simp only [View.ld_unit_zero (S := S2000x128) zero_offsets, View.ld_unit_zero (S := S2000x1) zero_offsets,
    View.ld_unit_zero (S := S128x128) zero_offsets, View.ld_unit_zero (S := S1x128) zero_offsets]
  funext j
  obtain ⟨p, q, rfl⟩ : ∃ (p : Fin 2000) (q : Fin 128), j = ix2 p q := ⟨j 0, j 1, eq_ix2 j⟩
  have hN : cfg1.N = 25 := N_1
  have ht : t.val < cfg1.N := t.isLt
  have hlt : t.val * 2000 + p.val < 50000 := by have := p.isLt; omega
  show k1_pay1 (F := Ideal) (iblk1 V c 0 t) (iblk1 V c 1 t) (iblk1 V c 2 t) (iblk1 V c 3 t) (iblk1 V c 5 t) (iblk1 V c 4 t)
        (iblk1 V c 6 t) (iblk1 V c 7 t) (ix2 p q)
      = Cert.Spec.logits (V c main_v44) (V c main_v20) (V c main_v33) (V c main_arg6) (V c main_v45) (V c main_arg8)
          (V c main_v48) (V c main_v52) (((cfg1.win 8).blk t).view.emb (ix2 p q))
  rw [output_block_entry t p q ⟨t.val * 2000 + p.val, hlt⟩ rfl]
  exact stored_at_rows (iblk1 V c 0 t) (iblk1 V c 1 t) (iblk1 V c 2 t) (iblk1 V c 3 t) (iblk1 V c 4 t) (iblk1 V c 5 t)
    (iblk1 V c 6 t) (iblk1 V c 7 t) (V c main_v44) (V c main_v20) (V c main_v33) (V c main_arg6) (V c main_v45)
    (V c main_arg8) (V c main_v48) (V c main_v52) p q ⟨t.val * 2000 + p.val, hlt⟩
    (fun l => agg_block V c t p l _ rfl) (scale_block V c t p _ rfl) (fun l => feature_block V c t p l _ rfl)
    (left_weights_block V c t) (bias_block V c t) (right_weights_block V c t) (classifier_block V c t)
    (classifier_bias_block V c t)

/-! ## The blocks cover the array -/

/-- An index of the output array is in point t's block iff each coordinate is in the block's range on its axis. -/
theorem mem_block (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v53).slice (win1_8.rect t)).set ↔ _
  rw [View.set_slice_whole, Rect.mem_set_unit]
  exact Iff.rfl

/-- Every index (r, q) of the output array is in the block of point r / 2000, and every point writes back. -/
theorem covered (i : S50000x128.Idx) :
    ∃ t : Fin cfg1.N, (cfg1.win 8).flush t = true ∧ i ∈ ((cfg1.win 8).blk t).view.set := by
  have hN : cfg1.N = 25 := N_1
  have hi0 : (i 0).val < 50000 := (i 0).isLt
  have hi1 : (i 1).val < 128 := (i 1).isLt
  have htN : (i 0).val / 2000 < cfg1.N := by omega
  obtain ⟨-, -, -, -, -, -, -, -, -, -, -, -, -, -, -, -, e0, e1⟩ := block_indices ⟨(i 0).val / 2000, htN⟩
  refine ⟨⟨(i 0).val / 2000, htN⟩, flush1_8 _, ?_⟩
  rw [mem_block]
  intro a
  match a with
  | ⟨0, _⟩ =>
    show win1_8.index ⟨(i 0).val / 2000, htN⟩ (0 : Fin 2) * 2000 ≤ (i 0).val
      ∧ (i 0).val < win1_8.index ⟨(i 0).val / 2000, htN⟩ (0 : Fin 2) * 2000 + 2000
    rw [e0]; show (i 0).val / 2000 * 2000 ≤ (i 0).val ∧ (i 0).val < (i 0).val / 2000 * 2000 + 2000; omega
  | ⟨1, _⟩ =>
    show win1_8.index ⟨(i 0).val / 2000, htN⟩ (1 : Fin 2) * 128 ≤ (i 1).val
      ∧ (i 1).val < win1_8.index ⟨(i 0).val / 2000, htN⟩ (1 : Fin 2) * 128 + 128
    rw [e1]; omega

/-! ## The output array -/

/-- THE OUTPUT ARRAY after all grid points is the specification's array of the arrays the region finds. -/
theorem final (V : (c : Dev nD) → (b : Ref sig .tc) → Buf (Elt Ideal) ((c : Thread nD τ).loc b)) (c : Dev nD) :
    (dat1 (F := Ideal) V c).arrAt 8 cfg1.N
      = Cert.Spec.logits (V c main_v44) (V c main_v20) (V c main_v33) (V c main_arg6) (V c main_v45) (V c main_arg8)
          (V c main_v48) (V c main_v52) :=
  (dat1 (F := Ideal) V c).arrAt_eq_of_cover 8
    (Cert.Spec.logits (V c main_v44) (V c main_v20) (V c main_v33) (V c main_arg6) (V c main_v45) (V c main_arg8)
      (V c main_v48) (V c main_v52))
    (fun t _ => written_back V c t) covered

end Cert.KernelIdeal.Region1

end
-- ==== Proof.RefRead.lean ====
/-
  The reference program read at one entry of its result.

  The reference computes each layer as: the neighbourhood sum divided, entry by entry, by the node's floored
  degree; times the left weights; plus the bias; plus the node's own features times the right weights. Read at
  node n and feature j this is

      ( Σ_k (agg(n, k) / d(n)) · Wl(k, j) + b(j) ) + Σ_k x(n, k) · Wr(k, j),

  the matrix products being plain sums on the extended reals. The first layer is followed by the positive part,
  the second by the classifier product and its bias. The neighbourhood sums, the degrees and the embedding
  lookup stay closed: only the dense arithmetic is opened.
-/
import proofs.«170168_j15917148799635_2_alg».proof.Proof.Gen.ReferenceIdeal.Read

set_option maxRecDepth 16384

noncomputable section

open scoped BigOperators

namespace Cert.ReferenceIdeal.RefValue

open Idealize.ShloMosaic Idealize.ShloMosaic.ValueIdx Cert.ReferenceIdeal Cert.ReferenceIdeal.Read

/-- One layer of the reference at node n and feature j. -/
def layerRef (agg : S50000x128.Idx → EReal) (d : S50000.Idx → EReal) (x : S50000x128.Idx → EReal)
    (wl : S128x128.Idx → EReal) (b : S128.Idx → EReal) (wr : S128x128.Idx → EReal) (n : Fin 50000) (j : Fin 128) : EReal :=
  ((∑ k : Fin 128, Ideal.div (agg (ix2 n k)) (d (ix1 n)) * wl (ix2 k j)) + b (ix1 j))
    + ∑ k : Fin 128, x (ix2 n k) * wr (ix2 k j)

/-! ## Where each operation reads its operands, at an entry (n, j) -/

section Indices
variable (n : Fin 50000) (j k : Fin 128)

theorem prod_lhs : lidx_main_v30 (ix2 n j) k = ix2 n k :=
  funext fun a => Fin.ext (by match a with | ⟨0, _⟩ => rfl | ⟨1, _⟩ => rfl)
theorem prod_rhs : ridx_main_v30 (ix2 n j) k = ix2 k j :=
  funext fun a => Fin.ext (by match a with | ⟨0, _⟩ => rfl | ⟨1, _⟩ => rfl)
theorem deg_col : idx_main_v28 (ix2 n j) = ix2 n (0 : Fin 1) :=
  funext fun a => Fin.ext (by match a with | ⟨0, _⟩ => rfl | ⟨1, _⟩ => rfl)
theorem deg_vec : idx_main_v27 (ix2 n (0 : Fin 1)) = ix1 n :=
  funext fun a => Fin.ext (by match a with | ⟨0, _⟩ => rfl)
theorem bias_row : idx_main_v32 (ix2 n j) = ix2 (0 : Fin 1) j :=
  funext fun a => Fin.ext (by match a with | ⟨0, _⟩ => rfl | ⟨1, _⟩ => rfl)
theorem bias_vec : idx_main_v31 (ix2 (0 : Fin 1) j) = ix1 j :=
  funext fun a => Fin.ext (by match a with | ⟨0, _⟩ => rfl)
theorem self_lhs : lidx_main_v34 (ix2 n j) k = ix2 n k :=
  funext fun a => Fin.ext (by match a with | ⟨0, _⟩ => rfl | ⟨1, _⟩ => rfl)
theorem self_rhs : ridx_main_v34 (ix2 n j) k = ix2 k j :=
  funext fun a => Fin.ext (by match a with | ⟨0, _⟩ => rfl | ⟨1, _⟩ => rfl)

theorem prod2_lhs : lidx_main_v56 (ix2 n j) k = ix2 n k :=
  funext fun a => Fin.ext (by match a with | ⟨0, _⟩ => rfl | ⟨1, _⟩ => rfl)
theorem prod2_rhs : ridx_main_v56 (ix2 n j) k = ix2 k j :=
  funext fun a => Fin.ext (by match a with | ⟨0, _⟩ => rfl | ⟨1, _⟩ => rfl)
theorem deg2_col : idx_main_v54 (ix2 n j) = ix2 n (0 : Fin 1) :=
  funext fun a => Fin.ext (by match a with | ⟨0, _⟩ => rfl | ⟨1, _⟩ => rfl)
theorem deg2_vec : idx_main_v53 (ix2 n (0 : Fin 1)) = ix1 n :=
  funext fun a => Fin.ext (by match a with | ⟨0, _⟩ => rfl)
theorem bias2_row : idx_main_v58 (ix2 n j) = ix2 (0 : Fin 1) j :=
  funext fun a => Fin.ext (by match a with | ⟨0, _⟩ => rfl | ⟨1, _⟩ => rfl)
theorem bias2_vec : idx_main_v57 (ix2 (0 : Fin 1) j) = ix1 j :=
  funext fun a => Fin.ext (by match a with | ⟨0, _⟩ => rfl)
theorem self2_lhs : lidx_main_v60 (ix2 n j) k = ix2 n k :=
  funext fun a => Fin.ext (by match a with | ⟨0, _⟩ => rfl | ⟨1, _⟩ => rfl)
theorem self2_rhs : ridx_main_v60 (ix2 n j) k = ix2 k j :=
  funext fun a => Fin.ext (by match a with | ⟨0, _⟩ => rfl | ⟨1, _⟩ => rfl)

variable (q : Fin 16)
theorem cls_lhs : lidx_main_v62 (ix2 n q) k = ix2 n k :=
  funext fun a => Fin.ext (by match a with | ⟨0, _⟩ => rfl | ⟨1, _⟩ => rfl)
theorem cls_rhs : ridx_main_v62 (ix2 n q) k = ix2 k q :=
  funext fun a => Fin.ext (by match a with | ⟨0, _⟩ => rfl | ⟨1, _⟩ => rfl)
theorem cls_bias_row : idx_main_v64 (ix2 n q) = ix2 (0 : Fin 1) q :=
  funext fun a => Fin.ext (by match a with | ⟨0, _⟩ => rfl | ⟨1, _⟩ => rfl)
theorem cls_bias_vec : idx_main_v63 (ix2 (0 : Fin 1) q) = ix1 q :=
  funext fun a => Fin.ext (by match a with | ⟨0, _⟩ => rfl)

end Indices

/-! ## The two layers at an entry -/

variable (x0 : S50000.Idx → BitVec 32) (x1 : S2x600000.Idx → BitVec 32) (x2 : S50000x128.Idx → EReal)
  (x3 : S128x128.Idx → EReal) (x4 : S128.Idx → EReal) (x5 x6 : S128x128.Idx → EReal) (x7 : S128.Idx → EReal)
  (x8 : S128x128.Idx → EReal) (x9 : S128x16.Idx → EReal) (x10 : S16.Idx → EReal)

/-- The first layer before its positive part, at (n, j): the layer of the first neighbourhood sum, the floored
    degrees and the embedding rows. -/
theorem pre_hidden_apply (n : Fin 50000) (j : Fin 128) :
    val_main_v35 (F := Ideal) x0 x1 x2 x3 x4 x5 (ix2 n j)
      = layerRef (val_main_v20 (F := Ideal) x0 x1 x2) (val_main_v26 (F := Ideal) x1) (val_main_v10 (F := Ideal) x0 x2) x3 x4 x5 n j := by
  rw [val_main_v35_apply, val_main_v33_apply, val_main_v30_apply, val_main_v32_apply, val_main_v31_apply, val_main_v34_apply]
  simp only [val_main_v29_apply, val_main_v28_apply, val_main_v27_apply, prod_lhs, prod_rhs, deg_col, deg_vec, bias_row,
    bias_vec, self_lhs, self_rhs, Ideal.hostDivf_def, Ideal.addf_def]
  rfl

/-- The first layer's output at (n, j): the positive part of the above (the floor is the zero word's value). -/
theorem hidden_apply (n : Fin 50000) (j : Fin 128) :
    val_main_v36 (F := Ideal) x0 x1 x2 x3 x4 x5 (ix2 n j)
      = max (layerRef (val_main_v20 (F := Ideal) x0 x1 x2) (val_main_v26 (F := Ideal) x1) (val_main_v10 (F := Ideal) x0 x2) x3 x4 x5 n j)
          (Ideal.ofBits .f32 0x00000000#32) := by
  rw [val_main_v36_apply, pre_hidden_apply, val_main_call0_v0_apply, val_main_call0_cst_apply]
  rfl

/-- The second layer at (n, k): the layer of the second neighbourhood sum, the floored degrees (computed again)
    and the first layer's output. -/
theorem second_apply (n : Fin 50000) (k : Fin 128) :
    val_main_v61 (F := Ideal) x0 x1 x2 x3 x4 x5 x6 x7 x8 (ix2 n k)
      = layerRef (val_main_v46 (F := Ideal) x0 x1 x2 x3 x4 x5) (val_main_v52 (F := Ideal) x1) (val_main_v36 (F := Ideal) x0 x1 x2 x3 x4 x5) x6 x7 x8 n k := by
  rw [val_main_v61_apply, val_main_v59_apply, val_main_v56_apply, val_main_v58_apply, val_main_v57_apply, val_main_v60_apply]
  simp only [val_main_v55_apply, val_main_v54_apply, val_main_v53_apply, prod2_lhs, prod2_rhs, deg2_col, deg2_vec, bias2_row,
    bias2_vec, self2_lhs, self2_rhs, Ideal.hostDivf_def, Ideal.addf_def]
  rfl

/-- The reference's result at node n and class q: the classifier product of the second layer, plus its bias. -/
theorem result_apply (n : Fin 50000) (q : Fin 16) :
    val_main_v65 (F := Ideal) x0 x1 x2 x3 x4 x5 x6 x7 x8 x9 x10 (ix2 n q)
      = (∑ k : Fin 128, layerRef (val_main_v46 (F := Ideal) x0 x1 x2 x3 x4 x5) (val_main_v52 (F := Ideal) x1)
            (val_main_v36 (F := Ideal) x0 x1 x2 x3 x4 x5) x6 x7 x8 n k * x9 (ix2 k q)) + x10 (ix1 q) := by
  rw [val_main_v65_apply, val_main_v62_apply, val_main_v64_apply, val_main_v63_apply]
  simp only [cls_lhs, cls_rhs, cls_bias_row, cls_bias_vec, second_apply, Ideal.addf_def]

/-- The degrees are computed twice from the same edges: the two stages are one function. -/
theorem degree_again : val_main_v52 (F := Ideal) x1 = val_main_v26 (F := Ideal) x1 := rfl

end Cert.ReferenceIdeal.RefValue

end
-- ==== Proof.LibScatterSet.lean ====
/-
  A scatter that REPLACES, read at one entry: the general fact, and the padding of a matrix with zero columns.

  jnp's zeros((A, B)).at[:, :C].set(U) writes a matrix U [A, C] over the first C columns of a matrix X [A, B]. It is
  one scatter whose body returns the update: a single start index, the column 0, and the whole of U as the window.
  The scatter is a left fold over the entries of U in row-major order; each step replaces the entry of the result at
  the position its entry of U lands on — start plus window coordinate — and leaves every other entry alone; an entry
  of U that lands outside the operand is dropped.

  First, for any dimension numbers: if an entry j of U lands at the position i, and no other entry of U lands there,
  then the folded result at i is U j. (The fold runs over every entry of U, j among them; after j's step the value at
  i is U j, and a later step changes the value at i only if its entry lands at i, which makes it j again.) No order
  of the steps and no count of them enters: the statement is about a fold over any list of entries.

  Then, for the padding: with the start column 0, the entry (a, c) of U lands at (a, c) of the result — the start is
  0 on the row axis, which the start index does not name, and the start index's component 0 on the column axis, and
  the window coordinates are a and c —, so two entries landing at one position have equal coordinates. Hence the
  padded matrix at (a, c), c below C, is U (a, c).
-/
import Idealize.ShloMosaic.PureOps.ShapeOps
import Idealize.ShloMosaic.Lib.ValueIdx

namespace Cert.LibScatterSet

open Idealize.ShloMosaic Idealize.ShloMosaic.ValueIdx

/-! ## The replacing fold at a position one update entry lands on -/

section Fold
variable {α : Type} {s si u : Shape} {w : Nat}

/-- One step of the replacing scatter: the entry of the updates at row-major position n lands at i₁ (or
    nowhere); the result is upd there at i₁ and the old result elsewhere. Read at a position i. -/
theorem step_apply (d : ScatterDims s si u) (idx : IVec si w) (upd : u.Idx → α) (r : s.Idx → α) (n : Fin u.numel)
    (i : s.Idx) :
    (match d.resultIdx? (u.rowMajor.symm n) idx with
      | some i₁ => fun i' => if i' = i₁ then upd (u.rowMajor.symm n) else r i'
      | none => r) i
      = if d.resultIdx? (u.rowMajor.symm n) idx = some i then upd (u.rowMajor.symm n) else r i := by
  cases h : d.resultIdx? (u.rowMajor.symm n) idx with
  | none => simp
  | some i₁ =>
    by_cases e : i = i₁
    · simp [e]
    · have : ¬ i₁ = i := fun h' => e h'.symm
      simp [e, this]

/-- THE FOLD AT A POSITION ONE ENTRY LANDS ON. Over any list L of row-major positions of the updates and from any
    start r₀: if the entry j lands at i, and every entry landing at i is j, then the fold's result at i is upd j
    when j's position is in L, and r₀ i when it is not. By induction on L, the start general: the head's step
    gives upd j at i when the head is j's position and leaves r₀ i when it is not, as then the head's entry does
    not land at i; the tail, by induction, gives upd j when j's position is in it, and the head's value at i
    otherwise. -/
theorem foldl_set_apply (d : ScatterDims s si u) (idx : IVec si w) (upd : u.Idx → α) (j : u.Idx) (i : s.Idx)
    (hj : d.resultIdx? j idx = some i) (huniq : ∀ j', d.resultIdx? j' idx = some i → j' = j)
    (L : List (Fin u.numel)) (r₀ : s.Idx → α) :
    L.foldl (fun r n =>
        match d.resultIdx? (u.rowMajor.symm n) idx with
        | some i₁ => fun i' => if i' = i₁ then upd (u.rowMajor.symm n) else r i'
        | none => r) r₀ i
      = if u.rowMajor j ∈ L then upd j else r₀ i := by
  induction L generalizing r₀ with
  | nil => simp
  | cons n L ih =>
    rw [List.foldl_cons, ih, step_apply]
    by_cases hL : u.rowMajor j ∈ L
    · simp [hL]
    · by_cases hn : u.rowMajor j = n
      · -- the head is j's position: its entry is j, which lands at i
        have hsymm : u.rowMajor.symm n = j := by rw [← hn]; exact u.rowMajor.symm_apply_apply j
        simp [hsymm, hj, hn]
      · -- the head is another position: its entry is not j, so it does not land at i
        have hne : ¬ d.resultIdx? (u.rowMajor.symm n) idx = some i := fun h =>
          hn (by rw [← huniq _ h]; exact u.rowMajor.apply_symm_apply n)
        have hn' : ¬ n = u.rowMajor j := fun h => hn h.symm
        simp [hL, hne, hn, hn']

/-- THE REPLACING SCATTER AT A POSITION ONE ENTRY LANDS ON: if the entry j of the updates lands at i and no other
    entry does, the scatter whose body returns the update reads upd j at i. The fold runs over every row-major
    position of the updates, j's among them. -/
theorem scatter_set_apply (d : ScatterDims s si u) (x : s.Idx → α) (idx : IVec si w) (upd : u.Idx → α)
    (j : u.Idx) (i : s.Idx) (hj : d.resultIdx? j idx = some i) (huniq : ∀ j', d.resultIdx? j' idx = some i → j' = j) :
    Host.scatter d (fun _ b => b) x idx upd i = upd j := by
  have h := foldl_set_apply d idx upd j i hj huniq (List.finRange u.numel) x
  rw [if_pos (List.mem_finRange _)] at h
  exact h

end Fold

/-! ## Padding with columns: the updates written over the first columns of the operand -/

section PadCols

/-- The dimension numbers of X.at[:, :C].set(U) for X [A, B] and U [A, C], one start index: both axes of the
    updates are window axes, no operand axis is inserted, the start index's one component goes to the column axis,
    and the scatter indices' only axis is the index vector's. Their conditions wf are decided on a program's literal
    extents. -/
abbrev padColsDims (A B C : Nat) (wf : ScatterDims.WF ⟨2, ![A, B]⟩ ⟨1, ![1]⟩ ⟨2, ![A, C]⟩ [0, 1] [] [1] 0) :
    ScatterDims ⟨2, ![A, B]⟩ ⟨1, ![1]⟩ ⟨2, ![A, C]⟩ where
  updateWindowDims := [0, 1]
  insertedWindowDims := []
  scatterDimsToOperandDims := [1]
  indexVectorDim := 0
  wf := wf

variable {α : Type} {A B C w : Nat} (wf : ScatterDims.WF ⟨2, ![A, B]⟩ ⟨1, ![1]⟩ ⟨2, ![A, C]⟩ [0, 1] [] [1] 0)

/-- The scatter indices [1] have one index: any two are equal. -/
theorem idx1_eq (k k' : (⟨1, ![1]⟩ : Shape).Idx) : k = k' := by
  funext b
  match b with
  | ⟨0, hb⟩ =>
    have h : (k ⟨0, hb⟩).val < 1 := (k ⟨0, hb⟩).isLt
    have h' : (k' ⟨0, hb⟩).val < 1 := (k' ⟨0, hb⟩).isLt
    exact Fin.ext (by omega)

/-- With no inserted axis, the operand's kept axes are both of them, in order. -/
theorem kept_nil : (⟨2, ![A, B]⟩ : Shape).kept [] = [0, 1] := by
  show (List.finRange 2).filter (fun a => decide (a ∉ ([] : List (Fin 2)))) = [0, 1]
  decide

/-- The window starts at row 0: the start index does not name the row axis. -/
theorem start_row (j : (⟨2, ![A, C]⟩ : Shape).Idx) (idx : IVec ⟨1, ![1]⟩ w) :
    (padColsDims A B C wf).start j idx 0 = 0 := by
  unfold ScatterDims.start
  rw [dif_neg (show (0 : Fin 2) ∉ [(1 : Fin 2)] by decide)]

/-- The window starts at the column the start index holds, read signed: column 0 when the scatter indices' one word
    is zero. -/
theorem start_col (j : (⟨2, ![A, C]⟩ : Shape).Idx) (idx : IVec ⟨1, ![1]⟩ w) (h0 : idx (ix1 0) = 0#w) :
    (padColsDims A B C wf).start j idx 1 = 0 := by
  unfold ScatterDims.start
  rw [dif_pos (show (1 : Fin 2) ∈ [(1 : Fin 2)] by decide)]
  rw [idx1_eq ((padColsDims A B C wf).siIdx j _) (ix1 0), h0, BitVec.toInt_zero]

/-- The window coordinate on the row axis is the update entry's row: the row axis is the first kept axis, and the
    first window axis of the updates is their row axis. -/
theorem window_row (j : (⟨2, ![A, C]⟩ : Shape).Idx) : (padColsDims A B C wf).window j 0 = (j 0).val := by
  unfold ScatterDims.window
  rw [dif_pos (show (0 : Fin 2) ∈ (⟨2, ![A, B]⟩ : Shape).kept [] by rw [kept_nil]; simp)]
  rfl

/-- The window coordinate on the column axis is the update entry's column. -/
theorem window_col (j : (⟨2, ![A, C]⟩ : Shape).Idx) : (padColsDims A B C wf).window j 1 = (j 1).val := by
  unfold ScatterDims.window
  rw [dif_pos (show (1 : Fin 2) ∈ (⟨2, ![A, B]⟩ : Shape).kept [] by rw [kept_nil]; simp)]
  rfl

/-- WHERE AN ENTRY LANDS, BY COORDINATES: with the start column 0, an entry of the updates that lands at i has i's
    row and i's column — start 0 plus its own coordinate on each axis. -/
theorem resultIdx?_coords (idx : IVec ⟨1, ![1]⟩ w) (h0 : idx (ix1 0) = 0#w) (j : (⟨2, ![A, C]⟩ : Shape).Idx)
    (i : (⟨2, ![A, B]⟩ : Shape).Idx) (h : (padColsDims A B C wf).resultIdx? j idx = some i) :
    (i 0).val = (j 0).val ∧ (i 1).val = (j 1).val := by
  unfold ScatterDims.resultIdx? at h
  split at h
  · have h' := Option.some.inj h
    subst h'
    refine ⟨?_, ?_⟩
    · show ((padColsDims A B C wf).start j idx 0 + (padColsDims A B C wf).window j 0).toNat = (j 0).val
      rw [start_row, window_row]; omega
    · show ((padColsDims A B C wf).start j idx 1 + (padColsDims A B C wf).window j 1).toNat = (j 1).val
      rw [start_col wf j idx h0, window_col]; omega
  · cases h

/-- THE ENTRY (a, c) LANDS AT (a, c) when column c exists in the operand: 0 + a is a row of the operand and 0 + c,
    below B, a column of it, so the entry is not dropped, and those are the coordinates it lands at. -/
theorem resultIdx?_inside (idx : IVec ⟨1, ![1]⟩ w) (h0 : idx (ix1 0) = 0#w) (a : Fin A) (c : Fin C) (hc : c.val < B) :
    (padColsDims A B C wf).resultIdx? (ix2 a c) idx = some (ix2 a ⟨c.val, hc⟩) := by
  have hin : ∀ k, 0 ≤ (padColsDims A B C wf).start (ix2 a c) idx k + (padColsDims A B C wf).window (ix2 a c) k ∧
      (padColsDims A B C wf).start (ix2 a c) idx k + (padColsDims A B C wf).window (ix2 a c) k
        < (⟨2, ![A, B]⟩ : Shape).size k := by
    refine Fin.forall_fin_two.2 ⟨?_, ?_⟩
    · rw [start_row, window_row]
      show 0 ≤ 0 + ((a.val : Nat) : Int) ∧ 0 + ((a.val : Nat) : Int) < ((A : Nat) : Int)
      have := a.isLt; omega
    · rw [start_col wf _ idx h0, window_col]
      show 0 ≤ 0 + ((c.val : Nat) : Int) ∧ 0 + ((c.val : Nat) : Int) < ((B : Nat) : Int)
      omega
  unfold ScatterDims.resultIdx?
  rw [dif_pos hin]
  congr 1
  funext k
  revert k
  refine Fin.forall_fin_two.2 ⟨?_, ?_⟩
  · refine Fin.ext ?_
    show ((padColsDims A B C wf).start (ix2 a c) idx 0 + (padColsDims A B C wf).window (ix2 a c) 0).toNat = a.val
    rw [start_row, window_row]
    show (0 + ((a.val : Nat) : Int)).toNat = a.val
    omega
  · refine Fin.ext ?_
    show ((padColsDims A B C wf).start (ix2 a c) idx 1 + (padColsDims A B C wf).window (ix2 a c) 1).toNat = c.val
    rw [start_col wf _ idx h0, window_col]
    show (0 + ((c.val : Nat) : Int)).toNat = c.val
    omega

/-- THE PADDED MATRIX INSIDE THE WRITTEN COLUMNS: X.at[:, :C].set(U), start column 0, reads U (a, c) at (a, c) for
    every column c of U that the operand has. The entry (a, c) of U lands at (a, c); an entry landing there has row a
    and column c, so it is that entry; the replacing scatter at a position one entry lands on reads that entry. -/
theorem scatter_set_padCols_apply (x : (⟨2, ![A, B]⟩ : Shape).Idx → α) (idx : IVec ⟨1, ![1]⟩ w)
    (upd : (⟨2, ![A, C]⟩ : Shape).Idx → α) (h0 : idx (ix1 0) = 0#w) (a : Fin A) (c : Fin C) (hc : c.val < B) :
    Host.scatter (padColsDims A B C wf) (fun _ b => b) x idx upd (ix2 a ⟨c.val, hc⟩) = upd (ix2 a c) := by
  refine scatter_set_apply _ x idx upd (ix2 a c) _ (resultIdx?_inside wf idx h0 a c hc) ?_
  intro j' hj'
  obtain ⟨hrow, hcol⟩ := resultIdx?_coords wf idx h0 j' _ hj'
  funext k
  revert k
  exact Fin.forall_fin_two.2 ⟨Fin.ext hrow.symm, Fin.ext hcol.symm⟩

end PadCols

/-! ## The two paddings of a classifier: a weight matrix [128, 16] to [128, 128], a bias row [1, 16] to [1, 128]

A record written with those four lists at these extents is padColsDims at them, whatever proof of the conditions it
carries. -/

example : ({ updateWindowDims := [0, 1], insertedWindowDims := [], scatterDimsToOperandDims := [1], indexVectorDim := 0 } :
    ScatterDims ⟨2, ![128, 128]⟩ ⟨1, ![1]⟩ ⟨2, ![128, 16]⟩) = padColsDims 128 128 16 (by decide) := rfl

example : ({ updateWindowDims := [0, 1], insertedWindowDims := [], scatterDimsToOperandDims := [1], indexVectorDim := 0 } :
    ScatterDims ⟨2, ![1, 128]⟩ ⟨1, ![1]⟩ ⟨2, ![1, 16]⟩) = padColsDims 1 128 16 (by decide) := rfl

end Cert.LibScatterSet
-- ==== Proof.Bridge.lean ====
/-
  The one law that joins the two programs, and the bridge built on it.

  The kernel multiplies a neighbourhood sum by the reciprocal 1 / d of the floored degree; the reference
  divides it by d. On the extended reals a quotient x / d by a d other than 0 is x · d⁻¹, so 1 / d = d⁻¹ and
  x · (1 / d) = x / d for every x, finite or not. The floored degree is a maximum with 1, hence at least 1 and
  not 0, whatever the degree is. Nothing else differs between the two layers: the bias read off a row [1, 128]
  is the bias vector, the padded classifier read inside its first 16 columns is the classifier, and the last
  host operation keeps exactly those columns.
-/
import proofs.«170168_j15917148799635_2_alg».proof.Proof.Spec
import proofs.«170168_j15917148799635_2_alg».proof.Proof.HostStages
import proofs.«170168_j15917148799635_2_alg».proof.Proof.RefRead
import proofs.«170168_j15917148799635_2_alg».proof.Proof.LibScatterSet
import proofs.«170168_j15917148799635_2_alg».proof.Proof.LibColumn
import Idealize.ShloMosaic.Lib.ValueLayout
import Idealize.ShloMosaic.Lib.Pipeline.Value

set_option maxRecDepth 16384

noncomputable section

open scoped BigOperators

namespace Cert.Bridge

open Idealize.ShloMosaic Idealize.ShloMosaic.ValueIdx
open Cert.ReferenceIdeal.Read Cert.ReferenceIdeal.RefValue Cert.KernelIdeal.Host

/-! ## The law -/

/-- The word of 1.0 denotes 1. -/
theorem one_word : Ideal.ofBits .f32 0x3F800000#32 = 1 := by
  simp [Ideal.ofBits, Ideal.ieee, -EReal.coe_mul]; norm_num

/-- Multiplying by the reciprocal of a divisor other than 0 is dividing by it. -/
theorem mul_recip (a d : EReal) (hd : d ≠ 0) : a * Ideal.div (Ideal.ofBits .f32 0x3F800000#32) d = Ideal.div a d := by
  unfold Ideal.div
  rw [if_neg hd, if_neg hd, one_word, one_mul]

/-- A maximum with the word of 1.0 is not 0: it is at least 1. -/
theorem floored_ne_zero (y : EReal) : max y (Ideal.ofBits .f32 0x3F800000#32) ≠ 0 := by
  rw [one_word]
  exact (lt_of_lt_of_le zero_lt_one (le_max_right y 1)).ne'

/-! ## The small arrays at an index -/

/-- The reciprocal column at node n is 1 / d(n). -/
theorem invCol_apply (d : Cert.KernelIdeal.S50000.Idx → EReal) (n : Fin 50000) :
    invCol d (ix2 n (0 : Fin 1)) = Ideal.div (Ideal.ofBits .f32 0x3F800000#32) (d (ix1 n)) := by
  unfold invCol
  exact Cert.LibColumn.shapeCast_a_a1_apply _ _ n 0

/-- A bias row read at (0, j) is the bias vector at j. -/
theorem biasRow_apply (b : Cert.KernelIdeal.S128.Idx → EReal) (j : Fin 128) : biasRow b (ix2 (0 : Fin 1) j) = b (ix1 j) := by
  unfold biasRow
  exact shapeCast_a_1a_apply _ _ 0 j

/-- The padded classifier read inside its first 16 columns is the classifier. -/
theorem padMatrix_apply (wc : Cert.KernelIdeal.S128x16.Idx → EReal) (k : Fin 128) (q : Fin 16) :
    padMatrix wc (ix2 k (⟨q.val, by omega⟩ : Fin 128)) = wc (ix2 k q) := by
  unfold padMatrix
  exact Cert.LibScatterSet.scatter_set_padCols_apply (A := 128) (B := 128) (C := 16) _ _ _ _ rfl k q (by omega)

/-- The padded classifier bias read inside its first 16 columns is the bias. -/
theorem padRow_apply (bc : Cert.KernelIdeal.S16.Idx → EReal) (q : Fin 16) :
    padRow bc (ix2 (0 : Fin 1) (⟨q.val, by omega⟩ : Fin 128)) = bc (ix1 q) := by
  unfold padRow
  exact (Cert.LibScatterSet.scatter_set_padCols_apply (A := 1) (B := 128) (C := 16) _ _ _ _ rfl 0 q (by omega)).trans
    (shapeCast_a_1a_apply _ _ 0 q)

/-! ## The floored degree is not zero -/

theorem deg_ne_zero (x1 : Cert.ReferenceIdeal.S2x600000.Idx → BitVec 32) (n : Fin 50000) :
    val_main_v26 (F := Ideal) x1 (ix1 n) ≠ 0 := by
  rw [val_main_v26_apply, val_main_v25_apply, val_main_cst_5_apply]
  exact floored_ne_zero _

/-! ## One layer: the kernel's spelling is the reference's -/

/-- With the scale the reciprocal column of d and the bias a row, the kernel's layer is the reference's, at every
    node whose d is not 0. -/
theorem layer_eq (agg : Cert.Spec.Nodes128.Idx → EReal) (d : Cert.KernelIdeal.S50000.Idx → EReal)
    (x : Cert.Spec.Nodes128.Idx → EReal) (wl : Cert.Spec.Sq128.Idx → EReal) (b : Cert.KernelIdeal.S128.Idx → EReal)
    (wr : Cert.Spec.Sq128.Idx → EReal) (n : Fin 50000) (j : Fin 128) (hd : d (ix1 n) ≠ 0) :
    Cert.Spec.layer agg (invCol d) x wl (biasRow b) wr n j = layerRef agg d x wl b wr n j := by
  unfold Cert.Spec.layer layerRef
  rw [invCol_apply, biasRow_apply]
  simp only [mul_recip _ _ hd]

variable (x0 : Cert.ReferenceIdeal.S50000.Idx → BitVec 32) (x1 : Cert.ReferenceIdeal.S2x600000.Idx → BitVec 32)
  (x2 : Cert.ReferenceIdeal.S50000x128.Idx → EReal) (x3 : Cert.ReferenceIdeal.S128x128.Idx → EReal)
  (x4 : Cert.ReferenceIdeal.S128.Idx → EReal) (x5 x6 : Cert.ReferenceIdeal.S128x128.Idx → EReal)
  (x7 : Cert.ReferenceIdeal.S128.Idx → EReal) (x8 : Cert.ReferenceIdeal.S128x128.Idx → EReal)
  (x9 : Cert.ReferenceIdeal.S128x16.Idx → EReal) (x10 : Cert.ReferenceIdeal.S16.Idx → EReal)

/-- The first kernel call's array, of the first neighbourhood sum, the reciprocal column, the embedding rows, the
    weights and the bias row, is the reference's first layer. -/
theorem hidden_eq :
    Cert.Spec.hidden (val_main_v20 (F := Ideal) x0 x1 x2) (invCol (val_main_v26 (F := Ideal) x1))
        (val_main_v10 (F := Ideal) x0 x2) x3 (biasRow x4) x5
      = val_main_v36 (F := Ideal) x0 x1 x2 x3 x4 x5 := by
  funext i
  obtain ⟨n, j, rfl⟩ : ∃ (n : Fin 50000) (j : Fin 128), i = ix2 n j := ⟨i 0, i 1, eq_ix2 i⟩
  rw [Cert.Spec.hidden_apply, Cert.ReferenceIdeal.RefValue.hidden_apply,
    layer_eq _ _ _ _ _ _ n j (deg_ne_zero x1 n)]

/-- At node n and class q the second kernel call's array, read in column q, is the reference's result: the
    padded classifier and bias are the classifier and bias there, and each layer entry is the reference's. -/
theorem logits_entry (n : Fin 50000) (q : Fin 16) :
    Cert.Spec.logits (val_main_v46 (F := Ideal) x0 x1 x2 x3 x4 x5) (invCol (val_main_v26 (F := Ideal) x1))
        (val_main_v36 (F := Ideal) x0 x1 x2 x3 x4 x5) x6 (biasRow x7) x8 (padMatrix x9) (padRow x10)
        (ix2 n (⟨q.val, by omega⟩ : Fin 128))
      = val_main_v65 (F := Ideal) x0 x1 x2 x3 x4 x5 x6 x7 x8 x9 x10 (ix2 n q) := by
  rw [Cert.Spec.logits_apply, Cert.ReferenceIdeal.RefValue.result_apply, degree_again, padRow_apply]
  refine congrArg (· + x10 (ix1 q)) (Finset.sum_congr rfl fun k _ => ?_)
  rw [layer_eq _ _ _ _ _ _ n k (deg_ne_zero x1 n), padMatrix_apply]

/-- Keeping the first 16 of 128 columns reads, at (n, q), the array at (n, q). -/
theorem keep16_apply (y : Cert.KernelIdeal.S50000x128.Idx → EReal) (n : Fin 50000) (q : Fin 16) :
    extractStridedSlice Cert.KernelIdeal.S50000x16 ![0, 0] y Cert.KernelIdeal.Facts₀.slices_S50000x128_S50000x16_0_0 (ix2 n q)
      = y (ix2 n (⟨q.val, by omega⟩ : Fin 128)) :=
  extractStridedSlice_apply ![0, 0] y _ (ix2 n q) (ix2 n (⟨q.val, by omega⟩ : Fin 128)) (fun a => by
    match a with
    | ⟨0, _⟩ => show n.val = 0 + n.val; omega
    | ⟨1, _⟩ => show q.val = 0 + q.val; omega)

/-- The first 16 columns of the second kernel call's array, of the second neighbourhood sum, the reciprocal
    column, the first layer, the weights, the bias row and the padded classifier, are the reference's result. -/
theorem result_eq :
    extractStridedSlice Cert.KernelIdeal.S50000x16 ![0, 0]
        (Cert.Spec.logits (val_main_v46 (F := Ideal) x0 x1 x2 x3 x4 x5) (invCol (val_main_v26 (F := Ideal) x1))
          (val_main_v36 (F := Ideal) x0 x1 x2 x3 x4 x5) x6 (biasRow x7) x8 (padMatrix x9) (padRow x10))
        Cert.KernelIdeal.Facts₀.slices_S50000x128_S50000x16_0_0
      = val_main_v65 (F := Ideal) x0 x1 x2 x3 x4 x5 x6 x7 x8 x9 x10 := by
  funext i
  rw [eq_ix2 i]
  exact (keep16_apply _ (i 0) (i 1)).trans (logits_entry x0 x1 x2 x3 x4 x5 x6 x7 x8 x9 x10 (i 0) (i 1))

end Cert.Bridge

end
-- ==== Proof.KernelValue.lean ====
/-
  The idealized kernel program's result, as a function of its arguments.

  The buffers are followed through the program. The first stretch of host operations leaves the embedding rows,
  the first neighbourhood sum, the reciprocal column of the floored degrees and the bias row; the first kernel
  call writes, from these, the array that is the reference's first layer; the second stretch gathers and sums
  that array along the edges again and pads the classifier; the second kernel call writes the padded logits;
  the last host operation keeps their first 16 columns, which are the reference's result. Buffers a kernel
  call only reads, and buffers it does not touch, keep their contents across it.
-/
import proofs.«170168_j15917148799635_2_alg».proof.Proof.KernelRun
import proofs.«170168_j15917148799635_2_alg».proof.Proof.HostStages
import proofs.«170168_j15917148799635_2_alg».proof.Proof.Region0
import proofs.«170168_j15917148799635_2_alg».proof.Proof.Region1
import proofs.«170168_j15917148799635_2_alg».proof.Proof.Bridge

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Host Cert.ReferenceIdeal.Read

variable (m : (ℓ : Loc nD τ sig) → Buf (Elt Ideal) ℓ) (ρ : Dev nD → PrngReg) (c : Dev nD)

/-! ## What the first kernel call finds, and what it leaves -/

/-- The first kernel call's result buffer holds the reference's first layer. -/
theorem first_layer : W2 m ρ c (Proc.devRef .tc main_v33) = val_main_v36 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) := by
  have e31 : V1 m ρ c main_v31 = val_main_v20 (F := Ideal) (W0 m ρ c (Proc.devRef .tc main_arg0)) (W0 m ρ c (Proc.devRef .tc main_arg1)) (W0 m ρ c (Proc.devRef .tc main_arg2)) := pre_agg (W0 m ρ c)
  have e20 : V1 m ρ c main_v20 = invCol (val_main_v26 (F := Ideal) (W0 m ρ c (Proc.devRef .tc main_arg1))) := pre_inv (W0 m ρ c)
  have e11 : V1 m ρ c main_v11 = val_main_v10 (F := Ideal) (W0 m ρ c (Proc.devRef .tc main_arg0)) (W0 m ρ c (Proc.devRef .tc main_arg2)) := pre_x (W0 m ρ c)
  have e3 : V1 m ρ c main_arg3 = (W0 m ρ c (Proc.devRef .tc main_arg3)) := pre_arg3 (W0 m ρ c)
  have e32 : V1 m ρ c main_v32 = biasRow (W0 m ρ c (Proc.devRef .tc main_arg4)) := pre_bias (W0 m ρ c)
  have e5 : V1 m ρ c main_arg5 = (W0 m ρ c (Proc.devRef .tc main_arg5)) := pre_arg5 (W0 m ρ c)
  refine (W2_arr m ρ c 6).trans ((Cert.KernelIdeal.Region0.final (V1 m ρ) c).trans ?_)
  rw [e31, e20, e11, e3, e32, e5]
  exact Cert.Bridge.hidden_eq _ _ _ _ _ _

/-- The edge buffers, the reciprocal column and the later arguments come through the first call unchanged. -/
theorem src_kept : W2 m ρ c (Proc.devRef .tc main_v1) = val_main_v1 (F := Ideal) (W0 m ρ c (Proc.devRef .tc main_arg1)) :=
  (W2_of_ne m ρ c main_v1 (by decide)).trans (pre_src (W0 m ρ c))
theorem dst_kept : W2 m ρ c (Proc.devRef .tc main_v3) = val_main_v3 (F := Ideal) (W0 m ρ c (Proc.devRef .tc main_arg1)) :=
  (W2_of_ne m ρ c main_v3 (by decide)).trans (pre_dst (W0 m ρ c))
theorem inv_kept : W2 m ρ c (Proc.devRef .tc main_v20) = invCol (val_main_v26 (F := Ideal) (W0 m ρ c (Proc.devRef .tc main_arg1))) :=
  (W2_arr m ρ c 1).trans (((dat0 (V1 m ρ) c).arrAt_in 1 rfl _).trans ((A_eq0 (V1 m ρ) c 1).trans (pre_inv (W0 m ρ c))))
theorem arg6_kept : W2 m ρ c (Proc.devRef .tc main_arg6) = (W0 m ρ c (Proc.devRef .tc main_arg6)) :=
  (W2_of_ne m ρ c main_arg6 (by decide)).trans (pre_arg6 (W0 m ρ c))
theorem arg7_kept : W2 m ρ c (Proc.devRef .tc main_arg7) = (W0 m ρ c (Proc.devRef .tc main_arg7)) :=
  (W2_of_ne m ρ c main_arg7 (by decide)).trans (pre_arg7 (W0 m ρ c))
theorem arg8_kept : W2 m ρ c (Proc.devRef .tc main_arg8) = (W0 m ρ c (Proc.devRef .tc main_arg8)) :=
  (W2_of_ne m ρ c main_arg8 (by decide)).trans (pre_arg8 (W0 m ρ c))
theorem arg9_kept : W2 m ρ c (Proc.devRef .tc main_arg9) = (W0 m ρ c (Proc.devRef .tc main_arg9)) :=
  (W2_of_ne m ρ c main_arg9 (by decide)).trans (pre_arg9 (W0 m ρ c))
theorem arg10_kept : W2 m ρ c (Proc.devRef .tc main_arg10) = (W0 m ρ c (Proc.devRef .tc main_arg10)) :=
  (W2_of_ne m ρ c main_arg10 (by decide)).trans (pre_arg10 (W0 m ρ c))

/-! ## What the second kernel call finds -/

theorem second_agg : V3 m ρ c main_v44 = val_main_v46 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) :=
  mid_agg (W2 m ρ c) _ _ _ _ _ _ (first_layer m ρ c) (src_kept m ρ c) (dst_kept m ρ c)
theorem second_inv : V3 m ρ c main_v20 = invCol (val_main_v26 (F := Ideal) (W0 m ρ c (Proc.devRef .tc main_arg1))) :=
  (mid_inv (W2 m ρ c)).trans (inv_kept m ρ c)
theorem second_h : V3 m ρ c main_v33 = val_main_v36 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) :=
  (mid_h (W2 m ρ c)).trans (first_layer m ρ c)
theorem second_wl : V3 m ρ c main_arg6 = (W0 m ρ c (Proc.devRef .tc main_arg6)) := (mid_arg6 (W2 m ρ c)).trans (arg6_kept m ρ c)
theorem second_wr : V3 m ρ c main_arg8 = (W0 m ρ c (Proc.devRef .tc main_arg8)) := (mid_arg8 (W2 m ρ c)).trans (arg8_kept m ρ c)
theorem second_bias : V3 m ρ c main_v45 = biasRow (W0 m ρ c (Proc.devRef .tc main_arg7)) :=
  (mid_bias (W2 m ρ c)).trans (congrArg biasRow (arg7_kept m ρ c))
theorem second_wc : V3 m ρ c main_v48 = padMatrix (W0 m ρ c (Proc.devRef .tc main_arg9)) :=
  (mid_wc (W2 m ρ c)).trans (congrArg padMatrix (arg9_kept m ρ c))
theorem second_bc : V3 m ρ c main_v52 = padRow (W0 m ρ c (Proc.devRef .tc main_arg10)) :=
  (mid_bc (W2 m ρ c)).trans (congrArg padRow (arg10_kept m ρ c))

/-! ## The result -/

/-- The result buffer's last contents are the reference's result stage of the arguments. -/
theorem result_value : W5 m ρ c (Proc.devRef .tc main_v54) = val_main_v65 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) := by
  refine (post_slice (W4 m ρ c)).trans ?_
  rw [show W4 m ρ c (Proc.devRef .tc main_v53) = _ from (W4_arr m ρ c 8).trans (Cert.KernelIdeal.Region1.final (V3 m ρ) c)]
  rw [second_agg, second_inv, second_h, second_wl, second_bias, second_wr, second_wc, second_bc]
  exact Cert.Bridge.result_eq _ _ _ _ _ _ _ _ _ _ _

/-- Every weakly fair execution of the idealized kernel program terminates without a fault, with the result
    array at the reference's result stage of the launch arguments and the arguments unchanged. -/
theorem run :
    θ_run defs (onTc (τ := τ) (main (F := Ideal))) ⟨m, fun _ => 0, ρ⟩ (fun r => ∀ c : Dev nD,
      r.2.mem ((c.tc : Thread nD τ).loc main_v54) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_value m ρ c), (h c).2⟩)
    (Cert.KernelIdeal.Run.run_value (F := Ideal) m ρ)

end Cert.KernelIdeal.Chain

end
-- ==== Proof.lean ====
/-
  The certificate of a two-layer GraphSAGE network with a classifier, computed by two tiled kernels among host
  gathers and scatter-adds, against its plain reference, on the extended reals.

  Both programs look up each node's embedding row, sum the rows of a node's in-neighbours (a gather along the
  edges' sources, added up at the edges' targets) and count the in-degree floored at one. A layer is
  (mean of the neighbours) · Wl + b + (own features) · Wr; the first layer is followed by the positive part, the
  second by a classifier product and its bias. The kernel program forms the mean as the sum times the
  reciprocal 1 / d, inside its kernels; the reference divides the sum by d. Since d is at least 1, hence not 0,
  x · (1 / d) = x / d for every extended real x: this is the one law the proof needs, and it needs no
  finiteness. The kernel program also carries its activations in a narrower float format (the identity on the
  extended reals), tiles the nodes in blocks of 5000 and 2000 (a different arrangement of the same entries), and
  pads the classifier to 128 columns, of which the result keeps the first 16 (the classifier's own).

  The three frames are the generated frame proofs (the reference's is its generated run with the result
  dropped). The kernel program's value is read off its run: each kernel call's output array is one whole-array
  function of its input arrays (Region0, Region1), the host operations around them are the reference's own
  stages (HostStages), and the bridge joins the two spellings of a layer (Bridge). The reference's value is its
  generated run, read at an entry (RefRead). No rewrite was applied by the idealization, so there is nothing
  to preserve.
-/
import proofs.«170168_j15917148799635_2_alg».proof.Defs
import proofs.«170168_j15917148799635_2_alg».proof.Proof.Gen.Kernel
import proofs.«170168_j15917148799635_2_alg».proof.Proof.Gen.Kernel.Skeleton
import proofs.«170168_j15917148799635_2_alg».proof.Proof.Gen.Kernel.Launch
import proofs.«170168_j15917148799635_2_alg».proof.Proof.Gen.Kernel.Points
import proofs.«170168_j15917148799635_2_alg».proof.Proof.Gen.Kernel.Frame
import proofs.«170168_j15917148799635_2_alg».proof.Proof.Gen.KernelIdeal
import proofs.«170168_j15917148799635_2_alg».proof.Proof.Gen.KernelIdeal.Skeleton
import proofs.«170168_j15917148799635_2_alg».proof.Proof.Gen.KernelIdeal.Launch
import proofs.«170168_j15917148799635_2_alg».proof.Proof.Gen.KernelIdeal.Points
import proofs.«170168_j15917148799635_2_alg».proof.Proof.Gen.KernelIdeal.Frame
import proofs.«170168_j15917148799635_2_alg».proof.Proof.Gen.ReferenceIdeal
import proofs.«170168_j15917148799635_2_alg».proof.Proof.Gen.Pre_finite_inputs
import proofs.«170168_j15917148799635_2_alg».proof.Proof.Gen.ReferenceIdeal.Run
import proofs.«170168_j15917148799635_2_alg».proof.Proof.Gen.ReferenceIdeal.Read
import proofs.«170168_j15917148799635_2_alg».proof.Proof.KernelValue
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs run, and both end with the result array
    at the reference's result stage of the kernel program's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
